-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128x512x512 : Shape := ⟨4, ![1, 128, 512, 512]⟩
abbrev S1x512x512x128 : Shape := ⟨4, ![1, 512, 512, 128]⟩
abbrev S128 : Shape := ⟨1, ![128]⟩
abbrev S128x128 : Shape := ⟨2, ![128, 128]⟩
abbrev S_ : Shape := ⟨0, ![]⟩

class Facts : Prop where
  bcast_S_S1x128x512x512 : S_.BroadcastsInDim S1x128x512x512 (![] : Fin 0 → Fin S1x128x512x512.rank)
  reducesTo_S1x128x512x512_S_d0_1_2_3 : S1x128x512x512.ReducesTo [0, 1, 2, 3] S_
  h_S_ : 0 < S_.numel
  bcast_S_S1x512x512x128 : S_.BroadcastsInDim S1x512x512x128 (![] : Fin 0 → Fin S1x512x512x128.rank)
  reducesTo_S1x512x512x128_S_d0_1_2_3 : S1x512x512x128.ReducesTo [0, 1, 2, 3] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S1x128x512x512 .f32) (main_arg1 : FVec F S1x128x512x512 .f32) (main_arg2 : FVec F S1x512x512x128 .f32) (main_arg3 : FVec F S128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S1x128x512x512 .f32 := Host.absf main_arg0
  let main_cst : FVec F S_ .f32 := constant S_ .f32 0x7F800000#32
  let main_v1 : FVec F S1x128x512x512 .f32 := broadcastInDim S1x128x512x512 ![] bcast_S_S1x128x512x512 main_cst
  let main_v2 : IVec S1x128x512x512 1 := cmpf .olt main_v0 main_v1
  let main_c : IVec S_ 1 := constantI S_ 1 1#1
  let main_v3 : IVec S_ 1 := (fun x v => Host.reduce IntOp.andi x v reducesTo_S1x128x512x512_S_d0_1_2_3 h_S_) main_v2 main_c
  let main_v4 : FVec F S1x128x512x512 .f32 := Host.absf main_arg1
  let main_cst_0 : FVec F S_ .f32 := constant S_ .f32 0x7F800000#32
  let main_v5 : FVec F S1x128x512x512 .f32 := broadcastInDim S1x128x512x512 ![] bcast_S_S1x128x512x512 main_cst_0
  let main_v6 : IVec S1x128x512x512 1 := cmpf .olt main_v4 main_v5
  let main_c_1 : IVec S_ 1 := constantI S_ 1 1#1
  let main_v7 : IVec S_ 1 := (fun x v => Host.reduce IntOp.andi x v reducesTo_S1x128x512x512_S_d0_1_2_3 h_S_) main_v6 main_c_1
  let main_v8 : IVec S_ 1 := andi main_v3 main_v7
  let main_v9 : FVec F S1x512x512x128 .f32 := Host.absf main_arg2
  let main_cst_2 : FVec F S_ .f32 := constant S_ .f32 0x7F800000#32
  let main_v10 : FVec F S1x512x512x128 .f32 := broadcastInDim S1x512x512x128 ![] bcast_S_S1x512x512x128 main_cst_2
  let main_v11 : IVec S1x512x512x128 1 := cmpf .olt main_v9 main_v10
  let main_c_3 : IVec S_ 1 := constantI S_ 1 1#1
  let main_v12 : IVec S_ 1 := (fun x v => Host.reduce IntOp.andi x v reducesTo_S1x512x512x128_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S1x128x512x512 : Shape := ⟨4, ![1, 128, 512, 512]⟩
abbrev S1x512x512x128 : Shape := ⟨4, ![1, 512, 512, 128]⟩
abbrev S128 : Shape := ⟨1, ![128]⟩
abbrev S128x128 : Shape := ⟨2, ![128, 128]⟩
abbrev S1x128x16x128 : Shape := ⟨4, ![1, 128, 16, 128]⟩
abbrev S1x128x128x128 : Shape := ⟨4, ![1, 128, 128, 128]⟩
abbrev S1x16x128x128 : Shape := ⟨4, ![1, 16, 128, 128]⟩
abbrev S128x16x128 : Shape := ⟨3, ![128, 16, 128]⟩
abbrev S128x128x128 : Shape := ⟨3, ![128, 128, 128]⟩
abbrev S16x128x128 : Shape := ⟨3, ![16, 128, 128]⟩
abbrev S16x128 : Shape := ⟨2, ![16, 128]⟩
abbrev S16x128x1 : Shape := ⟨3, ![16, 128, 1]⟩
abbrev S1x1x128 : Shape := ⟨3, ![1, 1, 128]⟩
abbrev S2048x128 : Shape := ⟨2, ![2048, 128]⟩
abbrev S1x128 : Shape := ⟨2, ![1, 128]⟩

abbrev nBuf : Space → Nat
  | .hbm => 10
  | .vmem => 15
  | .smem => 0
  | _ => 0

abbrev bufTy : (tb : Table) → Fin (tcTables nBuf tb) → BufTy
  | .hbm, ⟨0, _⟩ => ⟨S1x128x512x512, .f32⟩
  | .hbm, ⟨1, _⟩ => ⟨S1x128x512x512, .f32⟩
  | .hbm, ⟨2, _⟩ => ⟨S1x512x512x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x512x512x128, .f32⟩
  | .local _ .vmem, ⟨0, _⟩ => ⟨S1x128x16x128, .f32⟩
  | .local _ .vmem, ⟨1, _⟩ => ⟨S1x128x16x128, .f32⟩
  | .local _ .vmem, ⟨2, _⟩ => ⟨S1x128x128x128, .f32⟩
  | .local _ .vmem, ⟨3, _⟩ => ⟨S1x128x128x128, .f32⟩
  | .local _ .vmem, ⟨4, _⟩ => ⟨S1x16x128x128, .f32⟩
  | .local _ .vmem, ⟨5, _⟩ => ⟨S1x16x128x128, .f32⟩
  | .local _ .vmem, ⟨6, _⟩ => ⟨S128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S1x16x128x128, .f32⟩
  | .local _ .vmem, ⟨13, _⟩ => ⟨S1x16x128x128, .f32⟩
  | .local _ .vmem, ⟨14, _⟩ => ⟨S128x16x128, .f32⟩
  | _, _ => ⟨S1x128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![32, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_14 : BitVec 32 := 0#32
  let v17 : BitVec 1 := Scalar.cmpi .ne v16 c0_i32_14
  v17

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x16x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

class Facts₀ : Prop where
  inb_S128x16x128_S128x16x128_0_0_0 : ∀ a, (![0, 0, 0] : Fin 3 → Nat) a + S128x16x128.size a ≤ S128x16x128.size a
  h_S128x16x128 : 0 < S128x16x128.numel
  shapeCasts_S128x16x128_S128x16x128 : S128x16x128.ShapeCasts S128x16x128
  inb_S1x128x16x128_S1x128x16x128_0_0_0_0 : ∀ a, (![0, 0, 0, 0] : Fin 4 → Nat) a + S1x128x16x128.size a ≤ S1x128x16x128.size a
  h_S1x128x16x128 : 0 < S1x128x16x128.numel
  shapeCasts_S1x128x16x128_S128x16x128 : S1x128x16x128.ShapeCasts S128x16x128
  bitsLt_bf16_f32 : FTy.bits .bf16 < FTy.bits .f32
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  transposes_S128x16x128_p1_2_0_S16x128x128 : S128x16x128.Transposes [1, 2, 0] S16x128x128
  reduces_S16x128x128_S16x128 : S16x128x128.Reduces [2] S16x128
  shapeCasts_S16x128_S16x128x1 : S16x128.ShapeCasts S16x128x1
  broadcasts_S16x128x1_S16x128x128 : S16x128x1.Broadcasts S16x128x128
  inb_S128_S128_0 : ∀ a, (![0] : Fin 1 → Nat) a + S128.size a ≤ S128.size a
  h_S128 : 0 < S128.numel
  shapeCasts_S128_S1x1x128 : S128.ShapeCasts S1x1x128
  broadcasts_S1x1x128_S16x128x128 : S1x1x128.Broadcasts S16x128x128
  shapeCasts_S16x128x128_S2048x128 : S16x128x128.ShapeCasts S2048x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S128_S1x128 : S128.ShapeCasts S1x128
  broadcasts_S1x128_S2048x128 : S1x128.Broadcasts S2048x128
  inb_S1x16x128x128_S1x16x128x128_0_0_0_0 : ∀ a, (![0, 0, 0, 0] : Fin 4 → Nat) a + S1x16x128x128.size a ≤ S1x16x128x128.size a
  h_S1x16x128x128 : 0 < S1x16x128x128.numel
  shapeCasts_S1x16x128x128_S16x128x128 : S1x16x128x128.ShapeCasts S16x128x128
  shapeCasts_S2048x128_S16x128x128 : S2048x128.ShapeCasts S16x128x128
  shapeCasts_S16x128x128_S1x16x128x128 : S16x128x128.ShapeCasts S1x16x128x128
  dot_S128x16x128_S128x128x128_S128x16x128_2_1_1_2_0_0_wf : DotDims.WF S128x16x128 S128x128x128 S128x16x128 [2] [1] [1] [2] [0] [0]
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x128.size a ≤ S1x128x512x512.size a
  hwx0_0 : ∀ i : grid0.Coords, EltTy.bits .f32 = 32 ∨ (Rect.block (s := S1x128x512x512) S1x128x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x128.size a ≤ S1x128x512x512.size a
  hwx0_1 : ∀ i : grid0.Coords, EltTy.bits .f32 = 32 ∨ (Rect.block (s := S1x128x512x512) S1x128x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x128.size a ≤ S1x512x512x128.size a
  hwx0_2 : ∀ i : grid0.Coords, EltTy.bits .f32 = 32 ∨ (Rect.block (s := S1x512x512x128) S1x16x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x128x128.size a ≤ S1x512x512x128.size a
  hwx0_9 : ∀ i : grid0.Coords, EltTy.bits .f32 = 32 ∨ (Rect.block (s := S1x512x512x128) S1x16x128x128.size (cc0_transform_9 i) (hinb0_9 i)).WholeWords (EltTy.packing .f32)

variable [Facts₀]

def dot_S128x16x128_S128x128x128_S128x16x128_2_1_1_2_0_0 : DotDims S128x16x128 S128x128x128 S128x16x128 where
  lhsContracting := [2]
  rhsContracting := [1]
  lhsNonContracting := [1]
  rhsNonContracting := [2]
  lhsBatch := [0]
  rhsBatch := [0]
  wf := dot_S128x16x128_S128x128x128_S128x16x128_2_1_1_2_0_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S1x128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x16x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S1x128x512x512 : Shape := ⟨4, ![1, 128, 512, 512]⟩
abbrev S1x512x512x128 : Shape := ⟨4, ![1, 512, 512, 128]⟩
abbrev S128 : Shape := ⟨1, ![128]⟩
abbrev S128x128 : Shape := ⟨2, ![128, 128]⟩
abbrev S_ : Shape := ⟨0, ![]⟩
abbrev S1x512x512 : Shape := ⟨3, ![1, 512, 512]⟩
abbrev S1x512x512x1 : Shape := ⟨4, ![1, 512, 512, 1]⟩
abbrev S1x1x1x128 : Shape := ⟨4, ![1, 1, 1, 128]⟩

abbrev nBuf : Space → Nat
  | .hbm => 57
  | .vmem => 0
  | .smem => 0
  | _ => 0

abbrev bufTy : (tb : Table) → Fin (tcTables nBuf tb) → BufTy
  | .hbm, ⟨0, _⟩ => ⟨S1x128x512x512, .f32⟩
  | .hbm, ⟨1, _⟩ => ⟨S1x128x512x512, .f32⟩
  | .hbm, ⟨2, _⟩ => ⟨S1x512x512x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128x512x512, .f32⟩
  | .hbm, ⟨10, _⟩ => ⟨S1x512x512x128, .f32⟩
  | .hbm, ⟨11, _⟩ => ⟨S_, .f32⟩
  | .hbm, ⟨12, _⟩ => ⟨S1x512x512, .f32⟩
  | .hbm, ⟨13, _⟩ => ⟨S1x512x512x1, .f32⟩
  | .hbm, ⟨14, _⟩ => ⟨S_, .f32⟩
  | .hbm, ⟨15, _⟩ => ⟨S1x512x512x1, .f32⟩
  | .hbm, ⟨16, _⟩ => ⟨S1x512x512x1, .f32⟩
  | .hbm, ⟨17, _⟩ => ⟨S1x512x512x128, .f32⟩
  | .hbm, ⟨18, _⟩ => ⟨S1x512x512x128, .f32⟩
  | .hbm, ⟨19, _⟩ => ⟨S1x512x512x128, .f32⟩
  | .hbm, ⟨20, _⟩ => ⟨S_, .f32⟩
  | .hbm, ⟨21, _⟩ => ⟨S1x512x512, .f32⟩
  | .hbm, ⟨22, _⟩ => ⟨S1x512x512x1, .f32⟩
  | .hbm, ⟨23, _⟩ => ⟨S_, .f32⟩
  | .hbm, ⟨24, _⟩ => ⟨S1x512x512x1, .f32⟩
  | .hbm, ⟨25, _⟩ => ⟨S1x512x512x1, .f32⟩
  | .hbm, ⟨26, _⟩ => ⟨S1x512x512x128, .f32⟩
  | .hbm, ⟨27, _⟩ => ⟨S1x512x512x128, .f32⟩
  | .hbm, ⟨28, _⟩ => ⟨S_, .f32⟩
  | .hbm, ⟨29, _⟩ => ⟨S1x512x512x1, .f32⟩
  | .hbm, ⟨30, _⟩ => ⟨S1x512x512x1, .f32⟩
  | .hbm, ⟨31, _⟩ => ⟨S1x512x512x1, .f32⟩
  | .hbm, ⟨32, _⟩ => ⟨S1x512x512x128, .f32⟩
  | .hbm, ⟨33, _⟩ => ⟨S1x512x512x128, .f32⟩
  | .hbm, ⟨34, _⟩ => ⟨S1x1x1x128, .f32⟩
  | .hbm, ⟨35, _⟩ => ⟨S1x512x512x128, .f32⟩
  | .hbm, ⟨36, _⟩ => ⟨S1x512x512x128, .f32⟩
  | .hbm, ⟨37, _⟩ => ⟨S1x1x1x128, .f32⟩
  | .hbm, ⟨38, _⟩ => ⟨S1x512x512x128, .f32⟩
  | .hbm, ⟨39, _⟩ => ⟨S1x512x512x128, .f32⟩
  | .hbm, ⟨40, _⟩ => ⟨S1x512x512x128, .f32⟩
  | .hbm, ⟨41, _⟩ => ⟨S1x1x1x128, .f32⟩
  | .hbm, ⟨42, _⟩ => ⟨S1x512x512x128, .f32⟩
  | .hbm, ⟨43, _⟩ => ⟨S1x512x512x128, .f32⟩
  | .hbm, ⟨44, _⟩ => ⟨S1x512x512x128, .f32⟩
  | .hbm, ⟨45, _⟩ => ⟨S1x1x1x128, .f32⟩
  | .hbm, ⟨46, _⟩ => ⟨S1x512x512x128, .f32⟩
  | .hbm, ⟨47, _⟩ => ⟨S1x512x512x128, .f32⟩
  | .hbm, ⟨48, _⟩ => ⟨S1x512x512x128, .f32⟩
  | .hbm, ⟨49, _⟩ => ⟨S1x512x512x128, .f32⟩
  | .hbm, ⟨50, _⟩ => ⟨S_, .f32⟩
  | .hbm, ⟨51, _⟩ => ⟨S1x512x512x128, .f32⟩
  | .hbm, ⟨52, _⟩ => ⟨S1x512x512x128, .f32⟩
  | .hbm, ⟨53, _⟩ => ⟨S_, .f32⟩
  | .hbm, ⟨54, _⟩ => ⟨S1x512x512x128, .f32⟩
  | .hbm, ⟨55, _⟩ => ⟨S1x512x512x128, .f32⟩
  | .hbm, ⟨56, _⟩ => ⟨S1x512x512x128, .f32⟩
  | _, _ => ⟨S1x128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  transposes_S1x128x512x512_S1x512x512x128_0_2_3_1 : S1x128x512x512.Transposes [0, 2, 3, 1] S1x512x512x128
  reducesTo_S1x512x512x128_S1x512x512_d3 : S1x512x512x128.ReducesTo [3] S1x512x512
  h_S_ : 0 < S_.numel
  bcast_S1x512x512_S1x512x512x1_0_1_2 : S1x512x512.BroadcastsInDim S1x512x512x1 (![0, 1, 2] : Fin 3 → Fin S1x512x512x1.rank)
  bcast_S_S1x512x512x1 : S_.BroadcastsInDim S1x512x512x1 (![] : Fin 0 → Fin S1x512x512x1.rank)
  bcast_S1x512x512x1_S1x512x512x128_0_1_2_3 : S1x512x512x1.BroadcastsInDim S1x512x512x128 (![0, 1, 2, 3] : Fin 4 → Fin S1x512x512x128.rank)
  bcast_S128_S1x1x1x128_3 : S128.BroadcastsInDim S1x1x1x128 (![3] : Fin 1 → Fin S1x1x1x128.rank)
  bcast_S1x1x1x128_S1x512x512x128_0_1_2_3 : S1x1x1x128.BroadcastsInDim S1x512x512x128 (![0, 1, 2, 3] : Fin 4 → Fin S1x512x512x128.rank)
  bcast_S_S1x512x512x128 : S_.BroadcastsInDim S1x512x512x128 (![] : Fin 0 → Fin S1x512x512x128.rank)
  dot_S1x128x512x512_S1x128x512x512_S1x128x512x512_3_2_2_3_01_01_wf : DotDims.WF S1x128x512x512 S1x128x512x512 S1x128x512x512 [3] [2] [2] [3] [0, 1] [0, 1]
  dot_S1x512x512x128_S128x128_S1x512x512x128_3_1_012_0_n_n_wf : DotDims.WF S1x512x512x128 S128x128 S1x512x512x128 [3] [1] [0, 1, 2] [0] [] []

variable [Facts₀]

def dot_S1x128x512x512_S1x128x512x512_S1x128x512x512_3_2_2_3_01_01 : DotDims S1x128x512x512 S1x128x512x512 S1x128x512x512 where
  lhsContracting := [3]
  rhsContracting := [2]
  lhsNonContracting := [2]
  rhsNonContracting := [3]
  lhsBatch := [0, 1]
  rhsBatch := [0, 1]
  wf := dot_S1x128x512x512_S1x128x512x512_S1x128x512x512_3_2_2_3_01_01_wf
def dot_S1x512x512x128_S128x128_S1x512x512x128_3_1_012_0_n_n : DotDims S1x512x512x128 S128x128 S1x512x512x128 where
  lhsContracting := [3]
  rhsContracting := [1]
  lhsNonContracting := [0, 1, 2]
  rhsNonContracting := [0]
  lhsBatch := []
  rhsBatch := []
  wf := dot_S1x512x512x128_S128x128_S1x512x512x128_3_1_012_0_n_n_wf

class Facts : Prop extends Facts₀ where

variable [Facts]
-- ==== Proof.Spec.lean ====
/-
  The function both programs compute, stated once over the extended reals.

  For each position (i, k) of the 512 × 512 plane the batched product gives a row of 128 channel values
  p d = ∑ j, a[d, i, j] · b[d, j, k].  The row is normalised over its 128 channels (mean, variance, reciprocal square
  root of the variance plus a small word, then the per-channel scale and shift), sent through a 128 × 128 linear map
  with bias, and multiplied, channel by channel, by the logistic of a second linear map applied to the gate's row
  z[i, k, ·].  Everything after the product is a function of ONE row of p and ONE row of z: `rowOut`.
-/
import Idealize.ShloMosaic.PureOps.Ideal
import Idealize.ShloMosaic.PureOps.Ideal.Laws
import Idealize.ShloMosaic.Lib.ValueIdx

noncomputable section

open Idealize.ShloMosaic Idealize.ShloMosaic.ValueIdx
open scoped BigOperators

namespace Cert.GatedRowNorm

/-- The channel count 128.0 and the variance's small addend, as the float words both programs print. -/
abbrev w128 : EReal := Ideal.ofBits .f32 0x43000000#32
abbrev wEps : EReal := Ideal.ofBits .f32 0x3727C5AC#32

/-- The mean of a row over its 128 channels. -/
def rowMean (p : Fin 128 → EReal) : EReal := Ideal.div (∑ d : Fin 128, p d) w128

/-- The (biased) variance of a row: the mean of the squared deviations. -/
def rowVar (p : Fin 128 → EReal) : EReal :=
  Ideal.div (∑ d : Fin 128, (p d - rowMean p) * (p d - rowMean p)) w128

/-- The normalised row: deviation times the reciprocal root of (variance + small word), scaled and shifted per channel. -/
def rowNorm (p w b : Fin 128 → EReal) (d : Fin 128) : EReal :=
  (p d - rowMean p) * Ideal.rsqrt (rowVar p + wEps) * w d + b d

/-- A linear map with bias applied to a row: output channel c is ∑ d, x d · W c d + b c (W stored output-major). -/
def rowLin (x : Fin 128 → EReal) (W : Fin 128 → Fin 128 → EReal) (b : Fin 128 → EReal) (c : Fin 128) : EReal :=
  (∑ d : Fin 128, x d * W c d) + b c

/-- The result's row: the linear image of the normalised product row, gated by the logistic of the gate row's linear image. -/
def rowOut (p z w b : Fin 128 → EReal) (Wz : Fin 128 → Fin 128 → EReal) (bz : Fin 128 → EReal)
    (Wg : Fin 128 → Fin 128 → EReal) (bg : Fin 128 → EReal) (c : Fin 128) : EReal :=
  rowLin (rowNorm p w b) Wz bz c * Ideal.logistic (rowLin z Wg bg c)

/-- The whole result array as a function of the nine argument arrays: at (0, i, k, c) the row function of the product's
    row at (i, k) and the gate's row at (i, k). -/
def G (a b : (⟨4, ![1, 128, 512, 512]⟩ : Shape).Idx → EReal) (z : (⟨4, ![1, 512, 512, 128]⟩ : Shape).Idx → EReal)
    (w s : (⟨1, ![128]⟩ : Shape).Idx → EReal) (Wz : (⟨2, ![128, 128]⟩ : Shape).Idx → EReal)
    (bz : (⟨1, ![128]⟩ : Shape).Idx → EReal) (Wg : (⟨2, ![128, 128]⟩ : Shape).Idx → EReal)
    (bg : (⟨1, ![128]⟩ : Shape).Idx → EReal) : (⟨4, ![1, 512, 512, 128]⟩ : Shape).Idx → EReal :=
  fun idx =>
    rowOut (fun d => ∑ j : Fin 512, a (ix4 0 d (idx 1) j) * b (ix4 0 d j (idx 2)))
      (fun d => z (ix4 0 (idx 1) (idx 2) d))
      (fun d => w (ix1 d)) (fun d => s (ix1 d))
      (fun c d => Wz (ix2 c d)) (fun c => bz (ix1 c))
      (fun c d => Wg (ix2 c d)) (fun c => bg (ix1 c)) (idx 3)

end Cert.GatedRowNorm

end
-- ==== Proof.RefSpec.lean ====
/-
  The reference program computes the specification: read one operation at a time at an index, its last stage is the
  row function of the product's row and the gate's row.
-/
import proofs.«105277_j83708912599798_1_alg».proof.Proof.Gen.ReferenceIdeal.Read
import proofs.«105277_j83708912599798_1_alg».proof.Proof.Spec

noncomputable section

namespace Cert.ReferenceIdeal.RefSpec

open Cert.ReferenceIdeal Cert.ReferenceIdeal.Gen Cert.ReferenceIdeal.Read Idealize.ShloMosaic Idealize.ShloMosaic.ValueIdx Cert.GatedRowNorm
open scoped BigOperators

/-- The float word of 1.0 denotes the extended real one. -/
theorem ofBits_one : Ideal.ofBits .f32 0x3F800000#32 = 1 := by
  simp [Ideal.ofBits, Ideal.ieee, -EReal.coe_mul]; norm_num

/-- The product's row at (i, k): channel d holds ∑ j, a[0, d, i, j] · b[0, d, j, k]. -/
def prodRow (a b : (⟨S1x128x512x512, .f32⟩ : BufTy).Contents (Elt Ideal)) (i k : Fin 512) (d : Fin 128) : EReal :=
  ∑ j : Fin 512, a (ix4 0 d i j) * b (ix4 0 d j k)

/-- The transposed batched product at (0, i, k, d) is the product row's channel d. -/
theorem v1_at (a b : (⟨S1x128x512x512, .f32⟩ : BufTy).Contents (Elt Ideal)) (i k : Fin 512) (d : Fin 128) :
    val_main_v1 (F := Ideal) a b (ix4 0 i k d) = prodRow a b i k d := by
  rw [val_main_v1_apply, val_main_v0_apply]
  unfold prodRow
  refine Finset.sum_congr rfl fun j _ => ?_
  have el : lidx_main_v0 (idx_main_v1 (ix4 (0 : Fin 1) i k d)) j = ix4 (0 : Fin 1) d i j := funext fun e => Fin.ext (by
    match e with | ⟨0, _⟩ => rfl | ⟨1, _⟩ => rfl | ⟨2, _⟩ => rfl | ⟨3, _⟩ => rfl)
  have er : ridx_main_v0 (idx_main_v1 (ix4 (0 : Fin 1) i k d)) j = ix4 (0 : Fin 1) d j k := funext fun e => Fin.ext (by
    match e with | ⟨0, _⟩ => rfl | ⟨1, _⟩ => rfl | ⟨2, _⟩ => rfl | ⟨3, _⟩ => rfl)
  rw [el, er]

/-- The mean stage at (0, i, k, 0) is the product row's mean. -/
theorem v5_at (a b : (⟨S1x128x512x512, .f32⟩ : BufTy).Contents (Elt Ideal)) (i k : Fin 512) :
    val_main_v5 (F := Ideal) a b (ix4 0 i k 0) = rowMean (prodRow a b i k) := by
  rw [val_main_v5_apply, val_main_v3_apply, val_main_v2_apply, val_main_v4_apply, val_main_cst_apply, val_main_cst_0_apply]
  have hs : ∑ d : Fin 128, val_main_v1 (F := Ideal) a b (idx_main_v2 (idx_main_v3 (ix4 (0 : Fin 1) i k (0 : Fin 1))) d)
      = ∑ d : Fin 128, prodRow a b i k d := Finset.sum_congr rfl fun d _ => by
    rw [show idx_main_v2 (idx_main_v3 (ix4 (0 : Fin 1) i k (0 : Fin 1))) d = ix4 (0 : Fin 1) i k d from
      funext fun e => Fin.ext (by match e with | ⟨0, _⟩ => rfl | ⟨1, _⟩ => rfl | ⟨2, _⟩ => rfl | ⟨3, _⟩ => rfl), v1_at]
  rw [hs, Ideal.hostDivf_def, Ideal.ofBits_def, Ideal.ofBits_def, Ideal.ofBits_zero_f32, zero_add]
  rfl

/-- The centred row, first copy: at (0, i, k, d) the product row's channel d minus the row's mean. -/
theorem v7_at (a b : (⟨S1x128x512x512, .f32⟩ : BufTy).Contents (Elt Ideal)) (i k : Fin 512) (d : Fin 128) :
    val_main_v7 (F := Ideal) a b (ix4 0 i k d) = prodRow a b i k d - rowMean (prodRow a b i k) := by
  rw [val_main_v7_apply, val_main_v6_apply, v1_at,
    show idx_main_v6 (ix4 (0 : Fin 1) i k d) = ix4 (0 : Fin 1) i k (0 : Fin 1) from
      funext fun e => Fin.ext (by match e with | ⟨0, _⟩ => rfl | ⟨1, _⟩ => rfl | ⟨2, _⟩ => rfl | ⟨3, _⟩ => rfl),
    v5_at, Ideal.subf_def]

/-- The centred row, second copy (the reference broadcasts the mean twice). -/
theorem v14_at (a b : (⟨S1x128x512x512, .f32⟩ : BufTy).Contents (Elt Ideal)) (i k : Fin 512) (d : Fin 128) :
    val_main_v14 (F := Ideal) a b (ix4 0 i k d) = prodRow a b i k d - rowMean (prodRow a b i k) := by
  rw [val_main_v14_apply, val_main_v13_apply, v1_at,
    show idx_main_v13 (ix4 (0 : Fin 1) i k d) = ix4 (0 : Fin 1) i k (0 : Fin 1) from
      funext fun e => Fin.ext (by match e with | ⟨0, _⟩ => rfl | ⟨1, _⟩ => rfl | ⟨2, _⟩ => rfl | ⟨3, _⟩ => rfl),
    v5_at, Ideal.subf_def]

/-- The variance stage at (0, i, k, 0) is the product row's variance. -/
theorem v12_at (a b : (⟨S1x128x512x512, .f32⟩ : BufTy).Contents (Elt Ideal)) (i k : Fin 512) :
    val_main_v12 (F := Ideal) a b (ix4 0 i k 0) = rowVar (prodRow a b i k) := by
  rw [val_main_v12_apply, val_main_v10_apply, val_main_v9_apply, val_main_v11_apply, val_main_cst_1_apply, val_main_cst_2_apply]
  have hs : ∑ d : Fin 128, val_main_v8 (F := Ideal) a b (idx_main_v9 (idx_main_v10 (ix4 (0 : Fin 1) i k (0 : Fin 1))) d)
      = ∑ d : Fin 128, (prodRow a b i k d - rowMean (prodRow a b i k)) * (prodRow a b i k d - rowMean (prodRow a b i k)) :=
    Finset.sum_congr rfl fun d _ => by
      rw [show idx_main_v9 (idx_main_v10 (ix4 (0 : Fin 1) i k (0 : Fin 1))) d = ix4 (0 : Fin 1) i k d from
        funext fun e => Fin.ext (by match e with | ⟨0, _⟩ => rfl | ⟨1, _⟩ => rfl | ⟨2, _⟩ => rfl | ⟨3, _⟩ => rfl),
        val_main_v8_apply, v7_at, Ideal.mulf_def]
  rw [hs, Ideal.hostDivf_def, Ideal.ofBits_def, Ideal.ofBits_def, Ideal.ofBits_zero_f32, zero_add]
  rfl

/-- The reciprocal root stage at (0, i, k, 0): of the variance plus the small word. -/
theorem v17_at (a b : (⟨S1x128x512x512, .f32⟩ : BufTy).Contents (Elt Ideal)) (i k : Fin 512) :
    val_main_v17 (F := Ideal) a b (ix4 0 i k 0) = Ideal.rsqrt (rowVar (prodRow a b i k) + wEps) := by
  rw [val_main_v17_apply, val_main_v16_apply, v12_at, val_main_v15_apply, val_main_cst_3_apply,
    Ideal.hostUnary_rsqrt_def, Ideal.addf_def, Ideal.ofBits_def]

/-- The normalised, scaled and shifted row at (0, i, k, d). -/
theorem v25_at (a b : (⟨S1x128x512x512, .f32⟩ : BufTy).Contents (Elt Ideal)) (w s : (⟨S128, .f32⟩ : BufTy).Contents (Elt Ideal))
    (i k : Fin 512) (d : Fin 128) :
    val_main_v25 (F := Ideal) a b w s (ix4 0 i k d)
      = rowNorm (prodRow a b i k) (fun d => w (ix1 d)) (fun d => s (ix1 d)) d := by
  rw [val_main_v25_apply, val_main_v22_apply, val_main_v19_apply, v14_at, val_main_v18_apply,
    show idx_main_v18 (ix4 (0 : Fin 1) i k d) = ix4 (0 : Fin 1) i k (0 : Fin 1) from
      funext fun e => Fin.ext (by match e with | ⟨0, _⟩ => rfl | ⟨1, _⟩ => rfl | ⟨2, _⟩ => rfl | ⟨3, _⟩ => rfl),
    v17_at, val_main_v21_apply, val_main_v20_apply,
    show idx_main_v20 (idx_main_v21 (ix4 (0 : Fin 1) i k d)) = ix1 d from
      funext fun e => Fin.ext (by match e with | ⟨0, _⟩ => rfl),
    val_main_v24_apply, val_main_v23_apply,
    show idx_main_v23 (idx_main_v24 (ix4 (0 : Fin 1) i k d)) = ix1 d from
      funext fun e => Fin.ext (by match e with | ⟨0, _⟩ => rfl),
    Ideal.addf_def, Ideal.mulf_def, Ideal.mulf_def]
  rfl

/-- The first linear map with bias at (0, i, k, c): the linear image of the normalised row. -/
theorem v29_at (a b : (⟨S1x128x512x512, .f32⟩ : BufTy).Contents (Elt Ideal)) (w s : (⟨S128, .f32⟩ : BufTy).Contents (Elt Ideal))
    (Wz : (⟨S128x128, .f32⟩ : BufTy).Contents (Elt Ideal)) (bz : (⟨S128, .f32⟩ : BufTy).Contents (Elt Ideal))
    (i k : Fin 512) (c : Fin 128) :
    val_main_v29 (F := Ideal) a b w s Wz bz (ix4 0 i k c)
      = rowLin (rowNorm (prodRow a b i k) (fun d => w (ix1 d)) (fun d => s (ix1 d))) (fun c d => Wz (ix2 c d))
          (fun c => bz (ix1 c)) c := by
  rw [val_main_v29_apply, val_main_v26_apply, val_main_v28_apply, val_main_v27_apply,
    show idx_main_v27 (idx_main_v28 (ix4 (0 : Fin 1) i k c)) = ix1 c from
      funext fun e => Fin.ext (by match e with | ⟨0, _⟩ => rfl),
    Ideal.addf_def]
  have hs : ∑ d : Fin 128, val_main_v25 (F := Ideal) a b w s (lidx_main_v26 (ix4 (0 : Fin 1) i k c) d)
        * Wz (ridx_main_v26 (ix4 (0 : Fin 1) i k c) d)
      = ∑ d : Fin 128, rowNorm (prodRow a b i k) (fun d => w (ix1 d)) (fun d => s (ix1 d)) d * Wz (ix2 c d) :=
    Finset.sum_congr rfl fun d _ => by
      rw [show lidx_main_v26 (ix4 (0 : Fin 1) i k c) d = ix4 (0 : Fin 1) i k d from
          funext fun e => Fin.ext (by match e with | ⟨0, _⟩ => rfl | ⟨1, _⟩ => rfl | ⟨2, _⟩ => rfl | ⟨3, _⟩ => rfl),
        show ridx_main_v26 (ix4 (0 : Fin 1) i k c) d = ix2 c d from
          funext fun e => Fin.ext (by match e with | ⟨0, _⟩ => rfl | ⟨1, _⟩ => rfl),
        v25_at]
  rw [hs]
  rfl

/-- The gate at (0, i, k, c): the logistic, spelled 1 / (1 + exp (−x)), of the gate row's linear image. -/
theorem v39_at (z : (⟨S1x512x512x128, .f32⟩ : BufTy).Contents (Elt Ideal))
    (Wg : (⟨S128x128, .f32⟩ : BufTy).Contents (Elt Ideal)) (bg : (⟨S128, .f32⟩ : BufTy).Contents (Elt Ideal))
    (i k : Fin 512) (c : Fin 128) :
    val_main_v39 (F := Ideal) z Wg bg (ix4 0 i k c)
      = Ideal.logistic (rowLin (fun d => z (ix4 0 i k d)) (fun c d => Wg (ix2 c d)) (fun c => bg (ix1 c)) c) := by
  rw [val_main_v39_apply, val_main_v38_apply, val_main_cst_5_apply, val_main_v37_apply, val_main_v36_apply,
    val_main_cst_4_apply, val_main_v35_apply, val_main_v34_apply, val_main_v33_apply, val_main_v30_apply,
    val_main_v32_apply, val_main_v31_apply,
    show idx_main_v31 (idx_main_v32 (ix4 (0 : Fin 1) i k c)) = ix1 c from
      funext fun e => Fin.ext (by match e with | ⟨0, _⟩ => rfl)]
  have hs : ∑ d : Fin 128, z (lidx_main_v30 (ix4 (0 : Fin 1) i k c) d) * Wg (ridx_main_v30 (ix4 (0 : Fin 1) i k c) d)
      = ∑ d : Fin 128, z (ix4 (0 : Fin 1) i k d) * Wg (ix2 c d) :=
    Finset.sum_congr rfl fun d _ => by
      rw [show lidx_main_v30 (ix4 (0 : Fin 1) i k c) d = ix4 (0 : Fin 1) i k d from
          funext fun e => Fin.ext (by match e with | ⟨0, _⟩ => rfl | ⟨1, _⟩ => rfl | ⟨2, _⟩ => rfl | ⟨3, _⟩ => rfl),
        show ridx_main_v30 (ix4 (0 : Fin 1) i k c) d = ix2 c d from
          funext fun e => Fin.ext (by match e with | ⟨0, _⟩ => rfl | ⟨1, _⟩ => rfl)]
  rw [hs, Ideal.hostDivf_def, Ideal.addf_def, Ideal.addf_def, Ideal.hostUnary_exp_def, Ideal.hostNegf_def, Ideal.negf_def,
    Ideal.ofBits_def, ofBits_one]
  rfl

/-- The reference's result, as a function of the nine argument arrays, is the specification `G`. -/
theorem val_eq_G (a b : (⟨S1x128x512x512, .f32⟩ : BufTy).Contents (Elt Ideal)) (z : (⟨S1x512x512x128, .f32⟩ : BufTy).Contents (Elt Ideal))
    (w s : (⟨S128, .f32⟩ : BufTy).Contents (Elt Ideal)) (Wz : (⟨S128x128, .f32⟩ : BufTy).Contents (Elt Ideal))
    (bz : (⟨S128, .f32⟩ : BufTy).Contents (Elt Ideal)) (Wg : (⟨S128x128, .f32⟩ : BufTy).Contents (Elt Ideal))
    (bg : (⟨S128, .f32⟩ : BufTy).Contents (Elt Ideal)) :
    val_main_v40 (F := Ideal) a b z w s Wz bz Wg bg = G a b z w s Wz bz Wg bg := by
  funext idx
  obtain ⟨i0, i, k, c, rfl⟩ : ∃ (i0 : Fin 1) (i k : Fin 512) (c : Fin 128), idx = ix4 i0 i k c :=
    ⟨idx 0, idx 1, idx 2, idx 3, eq_ix4 idx⟩
  obtain rfl : i0 = 0 := Subsingleton.elim _ _
  rw [val_main_v40_apply, v29_at, v39_at, Ideal.mulf_def]
  rfl

end Cert.ReferenceIdeal.RefSpec

end
-- ==== Proof.Pieces.lean ====
/-
  What each control case of the body leaves behind, as values of what it read.

  The body has three cases, by the position j of the point along the contracted grid axis. At j = 0 it stores the zero
  block into the accumulator, reads it back and adds the product of the two input blocks; at 0 < j < 3 it adds the
  product to what the accumulator held; at j = 3 it does the same and then stores the output block computed from the
  accumulator it has just written, the gate block and the weights.
-/
import proofs.«105277_j83708912599798_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

/-- The all-zero offset of each rank is the constant-zero function. -/
private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- First point of a run: the accumulator ends at the zero block plus the product of the input blocks. -/
theorem sout_A (c : Dev nD) (i : grid0.Coords) (arg3 : Memref sig .tc .vmem S1x128x16x128 .f32) (harg3 : arg3.IsWhole) (arg4 : Memref sig .tc .vmem S1x128x128x128 .f32) (harg4 : arg4.IsWhole) (arg5 : Memref sig .tc .vmem S1x16x128x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x16x128x128 .f32) (harg12 : arg12.IsWhole) (arg13 : Memref sig .tc .vmem S128x16x128 .f32) (harg13 : arg13.IsWhole) (hc0 : cond0_0 i) (hc1 : ¬cond0_1 i)
    (x0 : Vec F S1x128x16x128 .f32) (x1 : Vec F S1x128x128x128 .f32) (x2 : Vec F S1x16x128x128 .f32) (x3 : Vec F S128 .f32) (x4 : Vec F S128 .f32) (x5 : Vec F S128x128 .f32) (x6 : Vec F S128 .f32) (x7 : Vec F S128x128 .f32) (x8 : Vec F S128 .f32) :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay2 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  sl_unfold_words
  rw [View.canon_cons_unit_zero (S := S128x16x128) hz3, View.readCov_unit_zero (S := S128x16x128) _ hz3]
  simp only [View.readAt_eq_ld, harg3.read_unread, harg4.read_unread,
    View.ld_unit_zero (S := S1x128x16x128) hz4, View.ld_unit_zero (S := S1x128x128x128) hz4]

/-- A middle point: the accumulator ends at what it held plus the product of the input blocks. -/
theorem sout_B (c : Dev nD) (i : grid0.Coords) (arg3 : Memref sig .tc .vmem S1x128x16x128 .f32) (harg3 : arg3.IsWhole) (arg4 : Memref sig .tc .vmem S1x128x128x128 .f32) (harg4 : arg4.IsWhole) (arg5 : Memref sig .tc .vmem S1x16x128x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x16x128x128 .f32) (harg12 : arg12.IsWhole) (arg13 : Memref sig .tc .vmem S128x16x128 .f32) (harg13 : arg13.IsWhole) (hc0 : ¬cond0_0 i) (hc1 : ¬cond0_1 i)
    (x0 : Vec F S1x128x16x128 .f32) (x1 : Vec F S1x128x128x128 .f32) (x2 : Vec F S1x16x128x128 .f32) (x3 : Vec F S128 .f32) (x4 : Vec F S128 .f32) (x5 : Vec F S128x128 .f32) (x6 : Vec F S128 .f32) (x7 : Vec F S128x128 .f32) (x8 : Vec F S128 .f32) (xs0 : Vec F S128x16x128 .f32) :
    sout0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_B
  dsimp only
  rw [View.canon_unit_zero hz3]
  simp only [View.readAt_eq_ld, harg3.read_unread, harg4.read_unread, harg13.read_unread,
    View.ld_unit_zero (S := S1x128x16x128) hz4, View.ld_unit_zero (S := S1x128x128x128) hz4,
    View.ld_unit_zero (S := S128x16x128) hz3]

/-- Last point of a run: the accumulator likewise, -/
theorem sout_C (c : Dev nD) (i : grid0.Coords) (arg3 : Memref sig .tc .vmem S1x128x16x128 .f32) (harg3 : arg3.IsWhole) (arg4 : Memref sig .tc .vmem S1x128x128x128 .f32) (harg4 : arg4.IsWhole) (arg5 : Memref sig .tc .vmem S1x16x128x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x16x128x128 .f32) (harg12 : arg12.IsWhole) (arg13 : Memref sig .tc .vmem S128x16x128 .f32) (harg13 : arg13.IsWhole) (hc0 : ¬cond0_0 i) (hc1 : cond0_1 i)
    (x0 : Vec F S1x128x16x128 .f32) (x1 : Vec F S1x128x128x128 .f32) (x2 : Vec F S1x16x128x128 .f32) (x3 : Vec F S128 .f32) (x4 : Vec F S128 .f32) (x5 : Vec F S128x128 .f32) (x6 : Vec F S128 .f32) (x7 : Vec F S128x128 .f32) (x8 : Vec F S128 .f32) (xs0 : Vec F S128x16x128 .f32) :
    sout0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 = k0_pay2 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz3]
  simp only [View.readAt_eq_ld, harg3.read_unread, harg4.read_unread, harg13.read_unread,
    View.ld_unit_zero (S := S1x128x16x128) hz4, View.ld_unit_zero (S := S1x128x128x128) hz4,
    View.ld_unit_zero (S := S128x16x128) hz3]

/-- and the output block is the last stage of the freshly written accumulator, the gate block and the weights. -/
theorem out_C (c : Dev nD) (i : grid0.Coords) (arg3 : Memref sig .tc .vmem S1x128x16x128 .f32) (harg3 : arg3.IsWhole) (arg4 : Memref sig .tc .vmem S1x128x128x128 .f32) (harg4 : arg4.IsWhole) (arg5 : Memref sig .tc .vmem S1x16x128x128 .f32) (harg5 : arg5.IsWhole) (arg6 : Memref sig .tc .vmem S128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128 .f32) (harg11 : arg11.IsWhole) (arg12 : Memref sig .tc .vmem S1x16x128x128 .f32) (harg12 : arg12.IsWhole) (arg13 : Memref sig .tc .vmem S128x16x128 .f32) (harg13 : arg13.IsWhole) (hc0 : ¬cond0_0 i) (hc1 : cond0_1 i)
    (x0 : Vec F S1x128x16x128 .f32) (x1 : Vec F S1x128x128x128 .f32) (x2 : Vec F S1x16x128x128 .f32) (x3 : Vec F S128 .f32) (x4 : Vec F S128 .f32) (x5 : Vec F S128x128 .f32) (x6 : Vec F S128 .f32) (x7 : Vec F S128x128 .f32) (x8 : Vec F S128 .f32) (xs0 : Vec F S128x16x128 .f32) :
    out0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0
      = k0_pay3 (k0_pay4 (k0_pay2 x0 x1 xs0) x3 x4 x5 x6) (k0_pay5 x2) x7 x8 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0)]
  unfold kernelRun0_C
  dsimp only
  sl_unfold_words
  rw [View.canon_unit_zero hz4, View.readCov_unit_zero (S := S128x16x128) _ hz3]
  simp only [View.readAt_eq_ld, harg3.read_unread, harg4.read_unread, harg5.read_unread, harg6.read_unread,
    harg7.read_unread, harg8.read_unread, harg9.read_unread, harg10.read_unread, harg11.read_unread,
    harg13.read_unread,
    View.ld_unit_zero (S := S1x128x16x128) hz4, View.ld_unit_zero (S := S1x128x128x128) hz4,
    View.ld_unit_zero (S := S1x16x128x128) hz4, View.ld_unit_zero (S := S128x16x128) hz3,
    View.ld_unit_zero (S := S128x128) hz2, View.ld_unit_zero (S := S128) hz1]

end Cert.KernelIdeal.Pieces

end
-- ==== Proof.PayGate.lean ====
/-
  The other stages of the body read at an index: the zero block, one step of the accumulation (the accumulator plus the
  product of the two input blocks over the 128 contracted positions), the gate's block flattened to rows, and the last
  stage (the projected block times the logistic of the gate's linear image).
-/
import proofs.«105277_j83708912599798_1_alg».proof.Proof.Gen.KernelIdeal.Skeleton
import proofs.«105277_j83708912599798_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayGate

open Cert.KernelIdeal Cert.KernelIdeal.Gen Idealize.ShloMosaic Idealize.ShloMosaic.ValueIdx Cert.GatedRowNorm
open scoped BigOperators

/-- The block stored at the first point of a run is zero everywhere. -/
theorem pay1_apply (j : S128x16x128.Idx) : k0_pay1 (F := Ideal) j = 0 := by
  unfold k0_pay1
  rw [shapeCast_self]
  exact Ideal.ofBits_zero_f32

/-! The operand indices of the batched product at output index i and contracted position q, one coordinate at a time:
    the left operand is read at (i 0, i 1, q), the right at (i 0, q, i 2). -/

theorem lhs2_0 (i : S128x16x128.Idx) (q : dot_S128x16x128_S128x128x128_S128x16x128_2_1_1_2_0_0.contr.Idx) :
    (dot_S128x16x128_S128x128x128_S128x16x128_2_1_1_2_0_0.lhsIdx i q 0).val = (i 0).val := by
  unfold DotDims.lhsIdx
  rw [dif_pos (show (0 : Fin S128x16x128.rank) ∈ dot_S128x16x128_S128x128x128_S128x16x128_2_1_1_2_0_0.lhsBatch by decide)]
  rfl
theorem lhs2_1 (i : S128x16x128.Idx) (q : dot_S128x16x128_S128x128x128_S128x16x128_2_1_1_2_0_0.contr.Idx) :
    (dot_S128x16x128_S128x128x128_S128x16x128_2_1_1_2_0_0.lhsIdx i q 1).val = (i 1).val := by
  unfold DotDims.lhsIdx
  rw [dif_neg (show ¬(1 : Fin S128x16x128.rank) ∈ dot_S128x16x128_S128x128x128_S128x16x128_2_1_1_2_0_0.lhsBatch by decide), dif_pos (show (1 : Fin S128x16x128.rank) ∈ dot_S128x16x128_S128x128x128_S128x16x128_2_1_1_2_0_0.lhsNonContracting by decide)]
  rfl
theorem lhs2_2 (i : S128x16x128.Idx) (q : dot_S128x16x128_S128x128x128_S128x16x128_2_1_1_2_0_0.contr.Idx) :
    (dot_S128x16x128_S128x128x128_S128x16x128_2_1_1_2_0_0.lhsIdx i q 2).val = (q ⟨0, by decide⟩).val :=
  dot_S128x16x128_S128x128x128_S128x16x128_2_1_1_2_0_0.lhsIdx_val_of_single rfl i q
theorem rhs2_0 (i : S128x16x128.Idx) (q : dot_S128x16x128_S128x128x128_S128x16x128_2_1_1_2_0_0.contr.Idx) :
    (dot_S128x16x128_S128x128x128_S128x16x128_2_1_1_2_0_0.rhsIdx i q 0).val = (i 0).val := by
  unfold DotDims.rhsIdx
  rw [dif_pos (show (0 : Fin S128x128x128.rank) ∈ dot_S128x16x128_S128x128x128_S128x16x128_2_1_1_2_0_0.rhsBatch by decide)]
  rfl
theorem rhs2_1 (i : S128x16x128.Idx) (q : dot_S128x16x128_S128x128x128_S128x16x128_2_1_1_2_0_0.contr.Idx) :
    (dot_S128x16x128_S128x128x128_S128x16x128_2_1_1_2_0_0.rhsIdx i q 1).val = (q ⟨0, by decide⟩).val :=
  dot_S128x16x128_S128x128x128_S128x16x128_2_1_1_2_0_0.rhsIdx_val_of_single rfl i q
theorem rhs2_2 (i : S128x16x128.Idx) (q : dot_S128x16x128_S128x128x128_S128x16x128_2_1_1_2_0_0.contr.Idx) :
    (dot_S128x16x128_S128x128x128_S128x16x128_2_1_1_2_0_0.rhsIdx i q 2).val = (i 2).val := by
  unfold DotDims.rhsIdx
  rw [dif_neg (show ¬(2 : Fin S128x128x128.rank) ∈ dot_S128x16x128_S128x128x128_S128x16x128_2_1_1_2_0_0.rhsBatch by decide), dif_pos (show (2 : Fin S128x128x128.rank) ∈ dot_S128x16x128_S128x128x128_S128x16x128_2_1_1_2_0_0.rhsNonContracting by decide)]
  rfl

/-- One accumulation step at (d, i, k): what the accumulator held plus ∑ q, x0[d, i, q] · x1[d, q, k]. -/
theorem pay2_apply (x0 : Vec Ideal S1x128x16x128 .f32) (x1 : Vec Ideal S1x128x128x128 .f32) (acc : Vec Ideal S128x16x128 .f32)
    (d : Fin 128) (i : Fin 16) (k : Fin 128) :
    k0_pay2 x0 x1 acc (ix3 d i k)
      = acc (ix3 d i k) + ∑ q : Fin 128, x0 (ix4 (0 : Fin 1) d i q) * x1 (ix4 (0 : Fin 1) d q k) := by
  unfold k0_pay2
  rw [shapeCast_self]
  refine (addf_apply (s := S128x16x128) (φ := .f32) _ _ (ix3 d i k)).trans ?_
  refine congrArg (acc (ix3 d i k) + ·) ?_
  refine (Ideal.matmul_constant_zero_apply dot_S128x16x128_S128x128x128_S128x16x128_2_1_1_2_0_0 none _ _ (ix3 d i k)).trans ?_
  -- the sum over the contraction shape's one axis, re-indexed by that axis's coordinate
  rw [← Equiv.sum_comp (contrEquiv1 dot_S128x16x128_S128x128x128_S128x16x128_2_1_1_2_0_0 128 rfl rfl).symm]
  refine Finset.sum_congr rfl fun q _ => ?_
  have hq := contrEquiv1_symm_val dot_S128x16x128_S128x128x128_S128x16x128_2_1_1_2_0_0 128 rfl rfl q
  have el : dot_S128x16x128_S128x128x128_S128x16x128_2_1_1_2_0_0.lhsIdx (ix3 d i k) ((contrEquiv1 dot_S128x16x128_S128x128x128_S128x16x128_2_1_1_2_0_0 128 rfl rfl).symm q) = ix3 d i q := funext fun a => Fin.ext (by
    match a with
    | ⟨0, _⟩ => exact lhs2_0 _ _
    | ⟨1, _⟩ => exact lhs2_1 _ _
    | ⟨2, _⟩ => exact (lhs2_2 _ _).trans hq)
  have er : dot_S128x16x128_S128x128x128_S128x16x128_2_1_1_2_0_0.rhsIdx (ix3 d i k) ((contrEquiv1 dot_S128x16x128_S128x128x128_S128x16x128_2_1_1_2_0_0 128 rfl rfl).symm q) = ix3 d q k := funext fun a => Fin.ext (by
    match a with
    | ⟨0, _⟩ => exact rhs2_0 _ _
    | ⟨1, _⟩ => exact (rhs2_1 _ _).trans hq
    | ⟨2, _⟩ => exact rhs2_2 _ _)
  rw [el, er]
  -- each factor: the change of format is the identity, and the cast drops the block's leading unit axis
  refine congrArg₂ (· * ·) ?_ ?_
  · refine (truncf_apply (s := S128x16x128) (φ := .f32) (ψ := .bf16) _ _ (ix3 d i q)).trans ?_
    exact shapeCast_1abc_abc_apply _ _ d i q
  · refine (truncf_apply (s := S128x128x128) (φ := .f32) (ψ := .bf16) _ _ (ix3 d q k)).trans ?_
    exact shapeCast_1abc_abc_apply _ _ d q k

/-- Row 128·i + k of the flattened gate block is the gate block's row at (i, k). -/
theorem pay5_apply (x2 : Vec Ideal S1x16x128x128 .f32) (i : Fin 16) (k : Fin 128) (d : Fin 128) (r : Fin 2048)
    (hr : r.val = i.val * 128 + k.val) : k0_pay5 x2 (ix2 r d) = x2 (ix4 (0 : Fin 1) i k d) := by
  unfold k0_pay5
  refine (truncf_apply (s := S2048x128) (φ := .f32) (ψ := .bf16) _ _ (ix2 r d)).trans ?_
  -- (r, d) of [2048, 128] and (i, k, d) of [16, 128, 128] have the same row-major position
  refine (shapeCast_apply _ _ (ix2 r d) (ix3 i k d) ?_).trans ?_
  · rw [Shape.rowMajor_val_three, Shape.rowMajor_val_two]
    show (i.val * 128 + k.val) * 128 + d.val = r.val * 128 + d.val
    rw [hr]
  · exact shapeCast_1abc_abc_apply _ _ i k d

/-! The operand indices of the plain product at output index i and contracted position q: the left operand is read at
    (i 0, q), the right at (q, i 1). -/

theorem lhs3_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs3_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs3_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs3_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The last stage at (0, i, k, c): the projected entry times the logistic of the gate row's linear image. -/
theorem pay3_apply (v55 : FVec Ideal S2048x128 .f32) (v59 : FVec Ideal S2048x128 .bf16) (x7 : Vec Ideal S128x128 .f32)
    (x8 : Vec Ideal S128 .f32) (i : Fin 16) (k : Fin 128) (c : Fin 128) (r : Fin 2048) (hr : r.val = i.val * 128 + k.val) :
    k0_pay3 v55 v59 x7 x8 (ix4 (0 : Fin 1) i k c)
      = v55 (ix2 r c) * Ideal.logistic ((∑ d : Fin 128, v59 (ix2 r d) * x7 (ix2 c d)) + x8 (ix1 c)) := by
  unfold k0_pay3
  -- the two casts back: (0, i, k, c) of [1, 16, 128, 128] is (i, k, c) of [16, 128, 128], which is row r of [2048, 128]
  refine (shapeCast_abc_1abc_apply _ _ (0 : Fin 1) i k c).trans ?_
  refine (shapeCast_apply _ _ (ix3 i k c) (ix2 r c) ?_).trans ?_
  · rw [Shape.rowMajor_val_three, Shape.rowMajor_val_two]
    show r.val * 128 + c.val = (i.val * 128 + k.val) * 128 + c.val
    rw [hr]
  refine (mulf_apply (s := S2048x128) (φ := .f32) _ _ (ix2 r c)).trans ?_
  refine congrArg (v55 (ix2 r c) * ·) ?_
  show Ideal.logistic _ = _
  refine congrArg Ideal.logistic ?_
  refine (addf_apply (s := S2048x128) (φ := .f32) _ _ (ix2 r c)).trans ?_
  refine congrArg₂ (· + ·) ?_ ?_
  · refine (Ideal.matmul_constant_zero_apply dot_S2048x128_S128x128_S2048x128_1_0_0_1_n_n none _ _ (ix2 r c)).trans ?_
    rw [← Equiv.sum_comp (contrEquiv1 dot_S2048x128_S128x128_S2048x128_1_0_0_1_n_n 128 rfl rfl).symm]
    refine Finset.sum_congr rfl fun q _ => ?_
    have hq := contrEquiv1_symm_val dot_S2048x128_S128x128_S2048x128_1_0_0_1_n_n 128 rfl rfl q
    have el : dot_S2048x128_S128x128_S2048x128_1_0_0_1_n_n.lhsIdx (ix2 r c) ((contrEquiv1 dot_S2048x128_S128x128_S2048x128_1_0_0_1_n_n 128 rfl rfl).symm q) = ix2 r q := funext fun a => Fin.ext (by
      match a with
      | ⟨0, _⟩ => exact lhs3_0 _ _
      | ⟨1, _⟩ => exact (lhs3_1 _ _).trans hq)
    have er : dot_S2048x128_S128x128_S2048x128_1_0_0_1_n_n.rhsIdx (ix2 r c) ((contrEquiv1 dot_S2048x128_S128x128_S2048x128_1_0_0_1_n_n 128 rfl rfl).symm q) = ix2 q c := funext fun a => Fin.ext (by
      match a with
      | ⟨0, _⟩ => exact (rhs3_0 _ _).trans hq
      | ⟨1, _⟩ => exact rhs3_1 _ _)
    rw [el, er]
    refine congrArg (v59 (ix2 r q) * ·) ?_
    -- the weight, transposed, in the other format: entry (q, c) is the weight's entry (c, q)
    refine (truncf_apply (s := S128x128) (φ := .f32) (ψ := .bf16) _ _ (ix2 q c)).trans ?_
    exact transpose_ix2_apply x7 _ q c
  · -- the bias as one row, repeated over the 2048 rows
    refine (broadcastTo_1b_ab_apply _ _ r c).trans ?_
    exact shapeCast_a_1a_apply x8 _ (0 : Fin 1) c

end Cert.KernelIdeal.PayGate

end
-- ==== Proof.Blocks.lean ====
/-
  Which entries of the argument arrays each window's block holds at a grid point.

  The grid has 32 × 4 × 4 points; point t has row-tile index t / 16, column-tile index (t / 4) % 4 and contraction-tile
  index t % 4. The first operand's block is rows 16·(t/16) … of a and columns 128·(t%4) … ; the second operand's block is
  rows 128·(t%4) … and columns 128·((t/4)%4) … of b; the gate's block and the output's block are rows 16·(t/16) … and
  columns 128·((t/4)%4) … of their arrays; the six small operands are staged whole.
-/
import proofs.«105277_j83708912599798_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The printed index maps of the four moving windows, decided once over the 512 grid points: the first operand's block
    index is (0, 0, t/16, t%4), the second's (0, 0, t%4, (t/4)%4), the gate's and the output's (0, t/16, (t/4)%4, 0). -/
theorem idx_facts : ∀ t : Fin cfg0.N,
    (win0_0.index t (0 : Fin 4) = 0 ∧ win0_0.index t (1 : Fin 4) = 0
      ∧ win0_0.index t (2 : Fin 4) = t.val / 16 ∧ win0_0.index t (3 : Fin 4) = t.val % 4)
    ∧ (win0_1.index t (0 : Fin 4) = 0 ∧ win0_1.index t (1 : Fin 4) = 0
      ∧ win0_1.index t (2 : Fin 4) = t.val % 4 ∧ win0_1.index t (3 : Fin 4) = t.val / 4 % 4)
    ∧ (win0_2.index t (0 : Fin 4) = 0 ∧ win0_2.index t (1 : Fin 4) = t.val / 16
      ∧ win0_2.index t (2 : Fin 4) = t.val / 4 % 4 ∧ win0_2.index t (3 : Fin 4) = 0)
    ∧ (win0_9.index t (0 : Fin 4) = 0 ∧ win0_9.index t (1 : Fin 4) = t.val / 16
      ∧ win0_9.index t (2 : Fin 4) = t.val / 4 % 4 ∧ win0_9.index t (3 : Fin 4) = 0) :=
  (by decide +kernel : ∀ t : Fin grid0.N, _)

/-- The six small operands' index maps are constantly zero. -/
theorem idx_facts_whole : ∀ t : Fin cfg0.N,
    win0_3.index t (0 : Fin 1) = 0 ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0 :=
  (by decide +kernel : ∀ t : Fin grid0.N, _)

/-- The block of a (operand 0) at point t, entry (0, d, i, q): a at row 16·(t/16) + i, column 128·(t%4) + q of channel d. -/
theorem iblk0_apply (c : Dev nD) (t : Fin cfg0.N) (d : Fin 128) (i : Fin 16) (q : Fin 128) (r s : Fin 512)
    (hr : r.val = t.val / 16 * 16 + i.val) (hs : s.val = t.val % 4 * 128 + q.val) :
    (iblk m c 0 t : Vec F S1x128x16x128 .f32) (ix4 (0 : Fin 1) d i q)
      = m ((c : Thread nD τ).loc main_arg0) (ix4 (0 : Fin 1) d r s) := by
  obtain ⟨⟨e0, e1, e2, e3⟩, -, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (0 : Fin 1).val = (0 : Fin 1).val; rw [e0]; rfl
  | ⟨1, _⟩ => show win0_0.index t (1 : Fin 4) * 128 + 1 * d.val = d.val; rw [e1]; omega
  | ⟨2, _⟩ => show win0_0.index t (2 : Fin 4) * 16 + 1 * i.val = r.val; rw [e2, hr]; omega
  | ⟨3, _⟩ => show win0_0.index t (3 : Fin 4) * 128 + 1 * q.val = s.val; rw [e3, hs]; omega

/-- The block of b (operand 1) at point t, entry (0, d, q, k): b at row 128·(t%4) + q, column 128·((t/4)%4) + k of channel d. -/
theorem iblk1_apply (c : Dev nD) (t : Fin cfg0.N) (d : Fin 128) (q : Fin 128) (k : Fin 128) (r s : Fin 512)
    (hr : r.val = t.val % 4 * 128 + q.val) (hs : s.val = t.val / 4 % 4 * 128 + k.val) :
    (iblk m c 1 t : Vec F S1x128x128x128 .f32) (ix4 (0 : Fin 1) d q k)
      = m ((c : Thread nD τ).loc main_arg1) (ix4 (0 : Fin 1) d r s) := by
  obtain ⟨-, ⟨e0, e1, e2, e3⟩, -, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * (0 : Fin 1).val = (0 : Fin 1).val; rw [e0]; rfl
  | ⟨1, _⟩ => show win0_1.index t (1 : Fin 4) * 128 + 1 * d.val = d.val; rw [e1]; omega
  | ⟨2, _⟩ => show win0_1.index t (2 : Fin 4) * 128 + 1 * q.val = r.val; rw [e2, hr]; omega
  | ⟨3, _⟩ => show win0_1.index t (3 : Fin 4) * 128 + 1 * k.val = s.val; rw [e3, hs]; omega

/-- The gate's block (operand 2) at point t, entry (0, i, k, d): z at row 16·(t/16) + i, column 128·((t/4)%4) + k, channel d. -/
theorem iblk2_apply (c : Dev nD) (t : Fin cfg0.N) (i : Fin 16) (k : Fin 128) (d : Fin 128) (r s : Fin 512)
    (hr : r.val = t.val / 16 * 16 + i.val) (hs : s.val = t.val / 4 % 4 * 128 + k.val) :
    (iblk m c 2 t : Vec F S1x16x128x128 .f32) (ix4 (0 : Fin 1) i k d)
      = m ((c : Thread nD τ).loc main_arg2) (ix4 (0 : Fin 1) r s d) := by
  obtain ⟨-, -, ⟨e0, e1, e2, e3⟩, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 4) * 1 + 1 * (0 : Fin 1).val = (0 : Fin 1).val; rw [e0]; rfl
  | ⟨1, _⟩ => show win0_2.index t (1 : Fin 4) * 16 + 1 * i.val = r.val; rw [e1, hr]; omega
  | ⟨2, _⟩ => show win0_2.index t (2 : Fin 4) * 128 + 1 * k.val = s.val; rw [e2, hs]; omega
  | ⟨3, _⟩ => show win0_2.index t (3 : Fin 4) * 128 + 1 * d.val = d.val; rw [e3]; omega

/-- The six small operands are staged whole: their block at any point is the array. -/
theorem iblk3_eq (c : Dev nD) (t : Fin cfg0.N) : (iblk m c 3 t : Vec F S128 .f32) = m ((c : Thread nD τ).loc main_arg3) := by
  obtain ⟨e0, -, -, -, -, -⟩ := idx_facts_whole t
  funext j
  unfold iblk
  rw [View.read_apply]
  show V m c main_arg3 _ = m (c.tc.loc main_arg3) _
  unfold V
  congr 1
  funext a
  apply Fin.ext
  match a with
  | ⟨0, _⟩ => show win0_3.index t (0 : Fin 1) * 128 + 1 * (j 0).val = (j 0).val; rw [e0]; omega
theorem iblk4_eq (c : Dev nD) (t : Fin cfg0.N) : (iblk m c 4 t : Vec F S128 .f32) = m ((c : Thread nD τ).loc main_arg4) := by
  obtain ⟨-, e0, -, -, -, -⟩ := idx_facts_whole t
  funext j
  unfold iblk
  rw [View.read_apply]
  show V m c main_arg4 _ = m (c.tc.loc main_arg4) _
  unfold V
  congr 1
  funext a
  apply Fin.ext
  match a with
  | ⟨0, _⟩ => show win0_4.index t (0 : Fin 1) * 128 + 1 * (j 0).val = (j 0).val; rw [e0]; omega
theorem iblk5_eq (c : Dev nD) (t : Fin cfg0.N) : (iblk m c 5 t : Vec F S128x128 .f32) = m ((c : Thread nD τ).loc main_arg5) := by
  obtain ⟨-, -, ⟨e0, e1⟩, -, -, -⟩ := idx_facts_whole t
  funext j
  unfold iblk
  rw [View.read_apply]
  show V m c main_arg5 _ = m (c.tc.loc main_arg5) _
  unfold V
  congr 1
  funext a
  apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega
theorem iblk6_eq (c : Dev nD) (t : Fin cfg0.N) : (iblk m c 6 t : Vec F S128 .f32) = m ((c : Thread nD τ).loc main_arg6) := by
  obtain ⟨-, -, -, e0, -, -⟩ := idx_facts_whole t
  funext j
  unfold iblk
  rw [View.read_apply]
  show V m c main_arg6 _ = m (c.tc.loc main_arg6) _
  unfold V
  congr 1
  funext a
  apply Fin.ext
  match a with
  | ⟨0, _⟩ => show win0_6.index t (0 : Fin 1) * 128 + 1 * (j 0).val = (j 0).val; rw [e0]; omega
theorem iblk7_eq (c : Dev nD) (t : Fin cfg0.N) : (iblk m c 7 t : Vec F S128x128 .f32) = m ((c : Thread nD τ).loc main_arg7) := by
  obtain ⟨-, -, -, -, ⟨e0, e1⟩, -⟩ := idx_facts_whole t
  funext j
  unfold iblk
  rw [View.read_apply]
  show V m c main_arg7 _ = m (c.tc.loc main_arg7) _
  unfold V
  congr 1
  funext a
  apply Fin.ext
  match a with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega
theorem iblk8_eq (c : Dev nD) (t : Fin cfg0.N) : (iblk m c 8 t : Vec F S128 .f32) = m ((c : Thread nD τ).loc main_arg8) := by
  obtain ⟨-, -, -, -, -, e0⟩ := idx_facts_whole t
  funext j
  unfold iblk
  rw [View.read_apply]
  show V m c main_arg8 _ = m (c.tc.loc main_arg8) _
  unfold V
  congr 1
  funext a
  apply Fin.ext
  match a with
  | ⟨0, _⟩ => show win0_8.index t (0 : Fin 1) * 128 + 1 * (j 0).val = (j 0).val; rw [e0]; omega

/-- Entry (0, i, k, e) of the output's block at point t sits at row 16·(t/16) + i, column 128·((t/4)%4) + k of the result. -/
theorem emb9 (t : Fin cfg0.N) (i : Fin 16) (k : Fin 128) (e : Fin 128) (r s : Fin 512)
    (hr : r.val = t.val / 16 * 16 + i.val) (hs : s.val = t.val / 4 % 4 * 128 + k.val) :
    ((cfg0.win 9).blk t).view.emb (ix4 (0 : Fin 1) i k e) = ix4 (0 : Fin 1) r s e := by
  obtain ⟨-, -, -, ⟨e0, e1, e2, e3⟩⟩ := idx_facts t
  funext a
  apply Fin.ext
  match a with
  | ⟨0, _⟩ => show win0_9.index t (0 : Fin 4) * 1 + 1 * (0 : Fin 1).val = (0 : Fin 1).val; rw [e0]; rfl
  | ⟨1, _⟩ => show win0_9.index t (1 : Fin 4) * 16 + 1 * i.val = r.val; rw [e1, hr]; omega
  | ⟨2, _⟩ => show win0_9.index t (2 : Fin 4) * 128 + 1 * k.val = s.val; rw [e2, hs]; omega
  | ⟨3, _⟩ => show win0_9.index t (3 : Fin 4) * 128 + 1 * e.val = e.val; rw [e3]; omega

/-- An index of the result lies in point t's output block iff its row is in the point's 16 rows and its column in the
    point's 128 columns. -/
theorem mem_blk9 (t : Fin cfg0.N) (idx : S1x512x512x128.Idx) :
    idx ∈ ((cfg0.win 9).blk t).view.set
      ↔ (t.val / 16 * 16 ≤ (idx 1).val ∧ (idx 1).val < t.val / 16 * 16 + 16)
        ∧ (t.val / 4 % 4 * 128 ≤ (idx 2).val ∧ (idx 2).val < t.val / 4 % 4 * 128 + 128) := by
  obtain ⟨-, -, -, ⟨e0, e1, e2, e3⟩⟩ := idx_facts t
  show idx ∈ ((View.whole main_v0).slice (win0_9.rect t)).set ↔ _
  rw [View.set_slice_whole, Rect.mem_set_unit]
  constructor
  · intro h
    have b1 : win0_9.index t (1 : Fin 4) * 16 ≤ (idx 1).val
        ∧ (idx 1).val < win0_9.index t (1 : Fin 4) * 16 + 16 := h 1
    have b2 : win0_9.index t (2 : Fin 4) * 128 ≤ (idx 2).val
        ∧ (idx 2).val < win0_9.index t (2 : Fin 4) * 128 + 128 := h 2
    rw [e1] at b1
    rw [e2] at b2
    exact ⟨b1, b2⟩
  · rintro ⟨b1, b2⟩ a
    match a with
    | ⟨0, _⟩ =>
      show win0_9.index t (0 : Fin 4) * 1 ≤ (idx 0).val ∧ (idx 0).val < win0_9.index t (0 : Fin 4) * 1 + 1
      have h0 : (idx 0).val < 1 := (idx 0).isLt
      rw [e0]; omega
    | ⟨1, _⟩ =>
      show win0_9.index t (1 : Fin 4) * 16 ≤ (idx 1).val ∧ (idx 1).val < win0_9.index t (1 : Fin 4) * 16 + 16
      rw [e1]; exact b1
    | ⟨2, _⟩ =>
      show win0_9.index t (2 : Fin 4) * 128 ≤ (idx 2).val ∧ (idx 2).val < win0_9.index t (2 : Fin 4) * 128 + 128
      rw [e2]; exact b2
    | ⟨3, _⟩ =>
      show win0_9.index t (3 : Fin 4) * 128 ≤ (idx 3).val ∧ (idx 3).val < win0_9.index t (3 : Fin 4) * 128 + 128
      have h3 : (idx 3).val < 128 := (idx 3).isLt
      rw [e3]; omega

end Cert.KernelIdeal.Blocks

end
-- ==== Proof.LibBlockSum.lean ====
/-
  A sum over the rows of an array cut into equal blocks.

  When T·B rows are cut into T consecutive blocks of B rows, row t·B + q is row q of block t, and a sum over all rows is
  the sum over the blocks of each block's own sum. A running total that starts at zero and adds one block's sum at a time
  therefore holds, after the first n blocks, the sum over the rows below n·B, and after all T blocks the sum over every row.
  Stated for any commutative additive monoid.
-/
import Mathlib.Data.Fintype.BigOperators
import Mathlib.Logic.Equiv.Fin.Basic

open scoped BigOperators

namespace Cert.LibBlockSum

variable {M : Type*} [AddCommMonoid M]

/-- Row q of block t lies among the T·B rows. -/
theorem row_lt {T B : Nat} (t : Fin T) (q : Fin B) : t.val * B + q.val < T * B :=
  calc t.val * B + q.val < t.val * B + B := Nat.add_lt_add_left q.isLt _
    _ = (t.val + 1) * B := (Nat.succ_mul _ _).symm
    _ ≤ T * B := Nat.mul_le_mul_right B t.isLt

/-- Row q of block t lies among the N rows when N = T·B. -/
theorem row_lt_of_eq {T B N : Nat} (h : T * B = N) (t : Fin T) (q : Fin B) : t.val * B + q.val < N :=
  h ▸ row_lt t q

/-- A sum over T·B rows is the sum over the T blocks of the sum over each block's B rows. -/
theorem sum_blocks {T B : Nat} (f : Fin (T * B) → M) :
    ∑ r : Fin (T * B), f r = ∑ t : Fin T, ∑ q : Fin B, f ⟨t.val * B + q.val, row_lt t q⟩ := by
  rw [← (finProdFinEquiv (m := T) (n := B)).sum_comp, Fintype.sum_prod_type]
  refine Finset.sum_congr rfl fun t _ => Finset.sum_congr rfl fun q _ => congrArg f (Fin.ext ?_)
  show q.val + B * t.val = t.val * B + q.val
  rw [Nat.mul_comm, Nat.add_comm]

/-- The same with the number of rows given as a literal N = T·B. -/
theorem sum_blocks_of_eq {T B N : Nat} (h : T * B = N) (f : Fin N → M) :
    ∑ r : Fin N, f r = ∑ t : Fin T, ∑ q : Fin B, f ⟨t.val * B + q.val, row_lt_of_eq h t q⟩ := by
  subst h
  exact sum_blocks f

/-- The total of the first n of T block values (a block past the last counts as zero). -/
def upTo {T : Nat} (g : Fin T → M) (n : Nat) : M :=
  ∑ k ∈ Finset.range n, if h : k < T then g ⟨k, h⟩ else 0

/-- Before any block the total is zero. -/
theorem upTo_zero {T : Nat} (g : Fin T → M) : upTo g 0 = 0 := Finset.sum_range_zero _

/-- Adding block n to the total of the first n blocks gives the total of the first n + 1. -/
theorem upTo_succ {T : Nat} (g : Fin T → M) (n : Nat) (hn : n < T) : upTo g (n + 1) = upTo g n + g ⟨n, hn⟩ := by
  unfold upTo
  rw [Finset.sum_range_succ, dif_pos hn]

/-- The first block alone. -/
theorem upTo_one {T : Nat} (g : Fin T → M) (h0 : 0 < T) : upTo g 1 = g ⟨0, h0⟩ := by
  rw [upTo_succ g 0 h0, upTo_zero, zero_add]

/-- After all T blocks the total is the sum over the blocks. -/
theorem upTo_all {T : Nat} (g : Fin T → M) : upTo g T = ∑ t : Fin T, g t := by
  unfold upTo
  rw [Finset.sum_fin_eq_sum_range]

/-- After all T blocks of B rows the running total of the blocks' sums is the sum over all N = T·B rows. -/
theorem upTo_blocks {T B N : Nat} (h : T * B = N) (f : Fin N → M) :
    upTo (fun t : Fin T => ∑ q : Fin B, f ⟨t.val * B + q.val, row_lt_of_eq h t q⟩) T = ∑ r : Fin N, f r := by
  rw [upTo_all, sum_blocks_of_eq h f]

end Cert.LibBlockSum
-- ==== Proof.Accum.lean ====
/-
  What the carried accumulator holds.

  Along the contracted grid axis the body resets the accumulator at the first point of a run of four and adds, at every
  point of the run, the product of that point's two input blocks. So after the point at position j of its run the
  accumulator holds zero plus the sum of the first j + 1 points' products, and after the run's last point its entry
  (d, i, k) is the whole product ∑ j, a[d, row, j] · b[d, j, column] over all 512 contracted positions: the four points'
  128-term sums are the four consecutive quarters of the 512-term sum.
-/
import proofs.«105277_j83708912599798_1_alg».proof.Proof.Gen.KernelIdeal.Value
import proofs.«105277_j83708912599798_1_alg».proof.Proof.Pieces
import proofs.«105277_j83708912599798_1_alg».proof.Proof.PayGate
import proofs.«105277_j83708912599798_1_alg».proof.Proof.Blocks
import proofs.«105277_j83708912599798_1_alg».proof.Proof.LibBlockSum

set_option maxRecDepth 16384

noncomputable section

namespace Cert.KernelIdeal.Accum

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ)

/-- The two input blocks of point n, and the two argument arrays, with their shapes and value type spelt out. -/
abbrev blkA (c : Dev nD) (n : ℕ) (h : n < cfg0.N) : Vec Ideal S1x128x16x128 .f32 := iblk m c 0 ⟨n, h⟩
abbrev blkB (c : Dev nD) (n : ℕ) (h : n < cfg0.N) : Vec Ideal S1x128x128x128 .f32 := iblk m c 1 ⟨n, h⟩
abbrev arrA (c : Dev nD) : Vec Ideal S1x128x512x512 .f32 := m ((c : Thread nD τ).loc main_arg0)
abbrev arrB (c : Dev nD) : Vec Ideal S1x128x512x512 .f32 := m ((c : Thread nD τ).loc main_arg1)

/-- Point n's addend at (d, i, k): the product of its two input blocks summed over the 128 contracted positions of the
    blocks (zero for a number past the grid, which nothing uses). -/
def addend (c : Dev nD) (n : ℕ) (d : Fin 128) (i : Fin 16) (k : Fin 128) : EReal :=
  if h : n < cfg0.N then
    ∑ q : Fin 128, blkA m c n h (ix4 (0 : Fin 1) d i q) * blkB m c n h (ix4 (0 : Fin 1) d q k)
  else 0

/-- The same as a function of the accumulator's index. -/
def addendAt (c : Dev nD) (n : ℕ) : S128x16x128.Idx → EReal := fun idx => addend m c n (idx 0) (idx 1) (idx 2)

/-- One step: the accumulator plus the point's addend, at every index. -/
theorem step_apply (c : Dev nD) (n : ℕ) (h : n < cfg0.N) (acc : Vec Ideal S128x16x128 .f32) (idx : S128x16x128.Idx) :
    k0_pay2 (iblk m c 0 ⟨n, h⟩) (iblk m c 1 ⟨n, h⟩) acc idx = acc idx + addendAt m c n idx := by
  obtain ⟨d, i, k, rfl⟩ : ∃ (d : Fin 128) (i : Fin 16) (k : Fin 128), idx = ix3 d i k := ⟨idx 0, idx 1, idx 2, eq_ix3 idx⟩
  refine (PayGate.pay2_apply (iblk m c 0 ⟨n, h⟩) (iblk m c 1 ⟨n, h⟩) acc d i k).trans ?_
  show _ = acc (ix3 d i k) + addend m c n d i k
  unfold addend
  rw [dif_pos h]

/-- At the first point of a run the accumulator is reset: the step from the zero block. -/
theorem scAt_first (c : Dev nD) (n : ℕ) (hb : n < cfg0.N) (h0 : n % 4 = 0) (acc : Vec Ideal S128x16x128 .f32) :
    Value.scAt0_0 m c n hb acc = k0_pay2 (iblk m c 0 ⟨n, hb⟩) (iblk m c 1 ⟨n, hb⟩) (k0_pay1 (F := Ideal)) := by
  have h1 : ¬n % 4 = 3 := by omega
  unfold Value.scAt0_0
  rw [dif_pos h0, dif_neg h1]
  exact Pieces.sout_A c _ _ _ _ _ _ _ _ _ _ _ _ _ _ _ _ _ _ _ _ _ _ _ _ _ _ _ _ _ _ _ _ _ _

/-- At every later point of a run: the step from what the point before left. -/
theorem scAt_later (c : Dev nD) (n : ℕ) (hb : n < cfg0.N) (h0 : ¬n % 4 = 0) (acc : Vec Ideal S128x16x128 .f32) :
    Value.scAt0_0 m c n hb acc = k0_pay2 (iblk m c 0 ⟨n, hb⟩) (iblk m c 1 ⟨n, hb⟩) acc := by
  unfold Value.scAt0_0
  rw [dif_neg h0]
  by_cases h1 : n % 4 = 3
  · rw [dif_pos h1]
    exact Pieces.sout_C c _ _ _ _ _ _ _ _ _ _ _ _ _ _ _ _ _ _ _ _ _ _ _ _ _ _ _ _ _ _ _ _ _ _ acc
  · rw [dif_neg h1]
    exact Pieces.sout_B c _ _ _ _ _ _ _ _ _ _ _ _ _ _ _ _ _ _ _ _ _ _ _ _ _ _ _ _ _ _ _ _ _ _ acc

/-- After the point at position t % 4 of its run the accumulator holds zero plus the sum of the run's addends so far. -/
theorem scratch_apply (c : Dev nD) (t : Fin cfg0.N) (idx : S128x16x128.Idx) :
    (outsAt0 m c t.val t.isLt).2 idx
      = 0 + ∑ s ∈ Finset.range (t.val % 4 + 1), addendAt m c (4 * (t.val / 4) + s) idx := by
  have hN : cfg0.N = 512 := N_0
  rw [Value.soutsAt0_0_eq m c t]
  refine Pipeline.accAt_add_apply (ι := S128x16x128.Idx) (β := EReal)
    (fun n h => Value.scAt0_0 m c n h (VS0_0.read (Elt Ideal) VS0_0.junk)) (Value.scAt0_0 m c)
    (fun _ => 0) (addendAt m c) (4 * (t.val / 4)) 3 ?_ ?_ (t.val % 4) (by omega) _ idx
  · intro h i
    show Value.scAt0_0 m c (4 * (t.val / 4)) h _ i = 0 + addendAt m c (4 * (t.val / 4)) i
    rw [scAt_first m c _ h (by omega)]
    refine (step_apply m c _ h _ i).trans ?_
    rw [PayGate.pay1_apply i]
  · intro n h acc i hlo hhi
    rw [scAt_later m c n h (by omega) acc]
    exact step_apply m c n h acc i

/-- After the LAST point of a run the accumulator's entry (d, i, k) is the whole 512-term product of a's row and b's
    column: the four points' blocks are the four consecutive quarters of the contracted axis. -/
theorem scratch_last (c : Dev nD) (t : Fin cfg0.N) (h3 : t.val % 4 = 3) (d : Fin 128) (i : Fin 16) (k : Fin 128)
    (r s : Fin 512) (hr : r.val = t.val / 16 * 16 + i.val) (hs : s.val = t.val / 4 % 4 * 128 + k.val) :
    (outsAt0 m c t.val t.isLt).2 (ix3 d i k)
      = ∑ j : Fin 512, arrA m c (ix4 (0 : Fin 1) d r j) * arrB m c (ix4 (0 : Fin 1) d j s) := by
  have hN : cfg0.N = 512 := N_0
  have ht : t.val < 512 := lt_of_lt_of_eq t.isLt hN
  rw [scratch_apply m c t (ix3 d i k), h3, zero_add, Finset.sum_range,
    Cert.LibBlockSum.sum_blocks_of_eq (T := 4) (B := 128) (N := 512) rfl]
  refine Finset.sum_congr rfl fun u _ => ?_
  have hu : u.val < 4 := u.isLt
  have hn : 4 * (t.val / 4) + u.val < cfg0.N := by omega
  show addend m c (4 * (t.val / 4) + u.val) d i k = _
  unfold addend
  rw [dif_pos hn]
  refine Finset.sum_congr rfl fun q _ => ?_
  have hq : q.val < 128 := q.isLt
  have e0 : blkA m c (4 * (t.val / 4) + u.val) hn (ix4 (0 : Fin 1) d i q)
      = arrA m c (ix4 (0 : Fin 1) d r ⟨u.val * 128 + q.val, Cert.LibBlockSum.row_lt_of_eq rfl u q⟩) :=
    Blocks.iblk0_apply m c ⟨4 * (t.val / 4) + u.val, hn⟩ d i q r ⟨u.val * 128 + q.val, Cert.LibBlockSum.row_lt_of_eq rfl u q⟩
      (by show r.val = (4 * (t.val / 4) + u.val) / 16 * 16 + i.val; omega)
      (by show u.val * 128 + q.val = (4 * (t.val / 4) + u.val) % 4 * 128 + q.val; omega)
  have e1 : blkB m c (4 * (t.val / 4) + u.val) hn (ix4 (0 : Fin 1) d q k)
      = arrB m c (ix4 (0 : Fin 1) d ⟨u.val * 128 + q.val, Cert.LibBlockSum.row_lt_of_eq rfl u q⟩ s) :=
    Blocks.iblk1_apply m c ⟨4 * (t.val / 4) + u.val, hn⟩ d q k ⟨u.val * 128 + q.val, Cert.LibBlockSum.row_lt_of_eq rfl u q⟩ s
      (by show u.val * 128 + q.val = (4 * (t.val / 4) + u.val) % 4 * 128 + q.val; omega)
      (by show s.val = (4 * (t.val / 4) + u.val) / 4 % 4 * 128 + k.val; omega)
  rw [e0, e1]

end Cert.KernelIdeal.Accum

end
-- ==== Proof.PayNorm.lean ====
/-
  The normalise-and-project stage of the body read at an index: row r = 128·i + k of the [2048, 128] result is the
  linear image (with bias) of the normalised row of channel values the accumulator holds at (·, i, k).
-/
import proofs.«105277_j83708912599798_1_alg».proof.Proof.Gen.KernelIdeal.Skeleton
import proofs.«105277_j83708912599798_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayNorm

open Cert.KernelIdeal Cert.KernelIdeal.Gen Idealize.ShloMosaic Idealize.ShloMosaic.ValueIdx Cert.GatedRowNorm
open scoped BigOperators

/-! ## The body's layout operations read at an index

Each operation that moves entries without computing is read at an index given by its coordinates: the result's entry is
the operand's entry at the index the operation's arithmetic names. -/

section Layout
variable {α : Type}

/-- The accumulator with its channel axis moved last: entry (i, k, d) of the transposed array is the operand's entry
    (d, i, k). -/
theorem chanLast_apply (v : S128x16x128.Idx → α) (h : S128x16x128.Transposes [1, 2, 0] S16x128x128)
    (i : Fin 16) (k : Fin 128) (d : Fin 128) :
    transpose S16x128x128 [1, 2, 0] v h (ix3 i k d) = v (ix3 d i k) :=
  transpose_apply _ v h _ _ fun c => match c with | ⟨0, _⟩ => rfl | ⟨1, _⟩ => rfl | ⟨2, _⟩ => rfl

/-- A [16, 128] array of row statistics given a trailing unit axis: entry (i, k, u) is the operand's entry (i, k). -/
theorem keepCol_apply (v : S16x128.Idx → α) (h : S16x128.ShapeCasts S16x128x1) (i : Fin 16) (k : Fin 128) (u : Fin 1) :
    shapeCast S16x128x1 v h (ix3 i k u) = v (ix2 i k) :=
  shapeCast_apply v h _ _ (by
    have hu : u.val = 0 := by omega
    rw [Shape.rowMajor_val_two, Shape.rowMajor_val_three]
    show i.val * 128 + k.val = (i.val * 128 + k.val) * 1 + u.val
    omega)

/-- A [16, 128, 1] column of row statistics spread over the 128 channels: entry (i, k, d) is the column's entry (i, k, 0). -/
theorem spreadCol_apply (v : S16x128x1.Idx → α) (h : S16x128x1.Broadcasts S16x128x128) (i : Fin 16) (k : Fin 128)
    (d : Fin 128) : broadcastTo S16x128x128 v h (ix3 i k d) = v (ix3 i k (0 : Fin 1)) := by
  refine broadcastTo_apply v h (ix3 i k d) (ix3 i k (0 : Fin 1)) fun ax => ?_
  match ax with
  | ⟨0, _⟩ => rfl
  | ⟨1, _⟩ => rfl
  | ⟨2, _⟩ => rfl

/-- A per-channel vector given two leading unit axes: entry (u₀, u₁, d) is the vector's entry d. -/
theorem chanRow_apply (v : S128.Idx → α) (h : S128.ShapeCasts S1x1x128) (u₀ u₁ : Fin 1) (d : Fin 128) :
    shapeCast S1x1x128 v h (ix3 u₀ u₁ d) = v (ix1 d) :=
  shapeCast_apply v h _ _ (by
    have h0 : u₀.val = 0 := by omega
    have h1 : u₁.val = 0 := by omega
    rw [Shape.rowMajor_val_one, Shape.rowMajor_val_three]
    show d.val = (u₀.val * 1 + u₁.val) * 128 + d.val
    omega)

/-- A [1, 1, 128] per-channel row spread over every (i, k): entry (i, k, d) is the row's entry (0, 0, d). -/
theorem spreadChan_apply (v : S1x1x128.Idx → α) (h : S1x1x128.Broadcasts S16x128x128) (i : Fin 16) (k : Fin 128)
    (d : Fin 128) : broadcastTo S16x128x128 v h (ix3 i k d) = v (ix3 (0 : Fin 1) (0 : Fin 1) d) := by
  refine broadcastTo_apply v h (ix3 i k d) (ix3 (0 : Fin 1) (0 : Fin 1) d) fun ax => ?_
  match ax with
  | ⟨0, _⟩ => rfl
  | ⟨1, _⟩ => rfl
  | ⟨2, _⟩ => rfl

/-- The [16, 128, 128] array flattened to [2048, 128] rows: row r = 128·i + k at channel c is the operand's entry
    (i, k, c). -/
theorem flatRow_apply (i : Fin 16) (k : Fin 128) (r : Fin 2048) (hr : r.val = i.val * 128 + k.val)
    (v : S16x128x128.Idx → α) (h : S16x128x128.ShapeCasts S2048x128) (c : Fin 128) :
    shapeCast S2048x128 v h (ix2 r c) = v (ix3 i k c) :=
  shapeCast_apply v h _ _ (by
    rw [Shape.rowMajor_val_three, Shape.rowMajor_val_two]
    show (i.val * 128 + k.val) * 128 + c.val = r.val * 128 + c.val
    rw [hr])

end Layout

/-! ## The lane sum, the reciprocal root and the projection read at an index -/

/-- The sum over the channel axis of a [16, 128, 128] array, at (i, k): the sum over the 128 channels of the entries
    (i, k, ·). -/
theorem laneSum_apply (v : FVec Ideal S16x128x128 .f32) (h : S16x128x128.Reduces [2] S16x128) (hφ : FKind.Formats .f32)
    (hacc : (0x00000000#32 : BitVec 32) = 0x00000000#32) (i : Fin 16) (k : Fin 128) :
    multiReduction (F := Ideal) .add [2] S16x128 v 0x00000000#32 h hφ hacc (ix2 i k)
      = ∑ d : Fin 128, v (ix3 i k d) :=
  (Ideal.multiReduction_add_single v 0x00000000#32 h hφ hacc (ix2 i k)).trans
    (Finset.sum_congr rfl fun d _ => congrArg v (funext fun a => Fin.ext (by
      match a with
      | ⟨0, _⟩ => rfl
      | ⟨1, _⟩ => rfl
      | ⟨2, _⟩ => rfl)))

/-- The reciprocal root of an array is taken entry by entry. -/
theorem rsqrt_apply {s : Shape} {φ : FTy} (v : FVec Ideal s φ) (j : s.Idx) : rsqrt v j = Ideal.rsqrt (v j) := rfl

/-- The projection's dimension numbers: rows by the contracted channel axis, times channel by output channel. -/
abbrev projDims : DotDims S2048x128 S128x128 S2048x128 := dot_S2048x128_S128x128_S2048x128_1_0_0_1_n_n

theorem projDims_lhs0 (j : S2048x128.Idx) (q : projDims.contr.Idx) : (projDims.lhsIdx j q 0).val = (j 0).val := by
  unfold DotDims.lhsIdx
  rw [dif_neg (show ¬(0 : Fin S2048x128.rank) ∈ projDims.lhsBatch by decide),
    dif_pos (show (0 : Fin S2048x128.rank) ∈ projDims.lhsNonContracting by decide)]
  rfl
theorem projDims_lhs1 (j : S2048x128.Idx) (q : projDims.contr.Idx) :
    (projDims.lhsIdx j q 1).val = (q ⟨0, by decide⟩).val :=
  projDims.lhsIdx_val_of_single rfl j q
theorem projDims_rhs0 (j : S2048x128.Idx) (q : projDims.contr.Idx) :
    (projDims.rhsIdx j q 0).val = (q ⟨0, by decide⟩).val :=
  projDims.rhsIdx_val_of_single rfl j q
theorem projDims_rhs1 (j : S2048x128.Idx) (q : projDims.contr.Idx) : (projDims.rhsIdx j q 1).val = (j 1).val := by
  unfold DotDims.rhsIdx
  rw [dif_neg (show ¬(1 : Fin S128x128.rank) ∈ projDims.rhsBatch by decide),
    dif_pos (show (1 : Fin S128x128.rank) ∈ projDims.rhsNonContracting by decide)]
  rfl

/-- The matrix product into a zero accumulator, at (r, c): the sum over the contracted channel d of the left factor's
    entry (r, d) times the right factor's entry (d, c). -/
theorem proj_apply {φ₁ φ₂ : FTy} (L : FVec Ideal S2048x128 φ₁) (R : FVec Ideal S128x128 φ₂) (r : Fin 2048) (c : Fin 128) :
    matmul dot_S2048x128_S128x128_S2048x128_1_0_0_1_n_n none L R (constant S2048x128 .f32 0x00000000#32) (ix2 r c)
      = ∑ d : Fin 128, L (ix2 r d) * R (ix2 d c) := by
  simp only [matmul]
  rw [Ideal.matmul_constant_zero_apply, ← Equiv.sum_comp (contrEquiv1 projDims 128 rfl rfl).symm]
  refine Finset.sum_congr rfl fun d _ => ?_
  have hk := contrEquiv1_symm_val projDims 128 rfl rfl d
  have el : projDims.lhsIdx (ix2 r c) ((contrEquiv1 projDims 128 rfl rfl).symm d) = ix2 r d :=
    funext fun a => Fin.ext (by
      match a with
      | ⟨0, _⟩ => exact projDims_lhs0 _ _
      | ⟨1, _⟩ => exact (projDims_lhs1 _ _).trans hk)
  have er : projDims.rhsIdx (ix2 r c) ((contrEquiv1 projDims 128 rfl rfl).symm d) = ix2 d c :=
    funext fun a => Fin.ext (by
      match a with
      | ⟨0, _⟩ => exact (projDims_rhs0 _ _).trans hk
      | ⟨1, _⟩ => exact projDims_rhs1 _ _)
  rw [el, er]

/-! ## The transposes and the lane sum as whole arrays

The same readings stated for the whole array rather than for one entry: the transposed array is the function
j ↦ v (j₂, j₀, j₁), and the lane sum is the function j ↦ ∑ d, v (j₀, j₁, d). -/

/-- The axis numbers of a rank-3 and of a rank-2 index are below the rank. -/
theorem lt3_0 : 0 < 3 := by decide
theorem lt3_1 : 1 < 3 := by decide
theorem lt3_2 : 2 < 3 := by decide
theorem lt2_0 : 0 < 2 := by decide
theorem lt2_1 : 1 < 2 := by decide

/-- The accumulator with its channel axis moved last, as an array. -/
theorem chanLast_eq {α : Type} (v : S128x16x128.Idx → α) (h : S128x16x128.Transposes [1, 2, 0] S16x128x128) :
    transpose S16x128x128 [1, 2, 0] v h
      = fun j => v (ix3 (j ⟨2, lt3_2⟩ : Fin 128) (j ⟨0, lt3_0⟩ : Fin 16) (j ⟨1, lt3_1⟩ : Fin 128)) := by
  funext j
  obtain ⟨i, k, d, rfl⟩ : ∃ (i : Fin 16) (k : Fin 128) (d : Fin 128), j = ix3 i k d := ⟨j 0, j 1, j 2, eq_ix3 j⟩
  exact chanLast_apply v h i k d

/-- The transposed weight, as an array. -/
theorem weightT_eq {α : Type} (v : S128x128.Idx → α) (h : S128x128.Transposes [1, 0] S128x128) :
    transpose S128x128 [1, 0] v h = fun j => v (ix2 (j ⟨1, lt2_1⟩ : Fin 128) (j ⟨0, lt2_0⟩ : Fin 128)) := by
  funext j
  obtain ⟨a, b, rfl⟩ : ∃ (a b : Fin 128), j = ix2 a b := ⟨j 0, j 1, eq_ix2 j⟩
  exact transpose_ix2_apply v h a b

/-- The sum over the channel axis, as an array. -/
theorem laneSum_eq (v : FVec Ideal S16x128x128 .f32) (h : S16x128x128.Reduces [2] S16x128) (hφ : FKind.Formats .f32)
    (hacc : (0x00000000#32 : BitVec 32) = 0x00000000#32) :
    multiReduction (F := Ideal) .add [2] S16x128 v 0x00000000#32 h hφ hacc
      = fun j => ∑ d : Fin 128, v (ix3 (j ⟨0, lt2_0⟩ : Fin 16) (j ⟨1, lt2_1⟩ : Fin 128) d) := by
  funext j
  obtain ⟨i, k, rfl⟩ : ∃ (i : Fin 16) (k : Fin 128), j = ix2 i k := ⟨j 0, j 1, eq_ix2 j⟩
  exact laneSum_apply v h hφ hacc i k

/-- Entry (128·i + k, c) of the projected block: the row function's first factor, of the accumulator's channel row at (i, k). -/
theorem pay4_apply (acc : Vec Ideal S128x16x128 .f32) (x3 x4 : Vec Ideal S128 .f32) (x5 : Vec Ideal S128x128 .f32)
    (x6 : Vec Ideal S128 .f32) (i : Fin 16) (k : Fin 128) (c : Fin 128) (r : Fin 2048) (hr : r.val = i.val * 128 + k.val) :
    k0_pay4 acc x3 x4 x5 x6 (ix2 r c)
      = rowLin (rowNorm (fun d => acc (ix3 d i k)) (fun d => x3 (ix1 d)) (fun d => x4 (ix1 d)))
          (fun c d => x5 (ix2 c d)) (fun c => x6 (ix1 c)) c := by
  unfold k0_pay4
  -- Entry (r, c) is (∑ d, N (r, d) · Wᵀ (d, c)) + bias c, and N (r, d) is the normalised array's entry (i, k, d): every
  -- pointwise operation, broadcast and reshape is read at its index.
  simp only [addf_apply, mulf_apply, subf_apply, divf_apply, truncf_apply, rsqrt_apply, broadcast_apply,
    proj_apply, flatRow_apply i k r hr, broadcastTo_1b_ab_apply, shapeCast_a_1a_apply,
    spreadChan_apply, chanRow_apply, spreadCol_apply, keepCol_apply]
  -- The channel-last transpose of the accumulator, the weight's transpose and the two lane sums, as arrays.
  rw [chanLast_eq, weightT_eq, laneSum_eq, laneSum_eq]
  -- The entries under the two lane sums are read the same way.
  simp only [addf_apply, mulf_apply, subf_apply, divf_apply, truncf_apply, rsqrt_apply, broadcast_apply,
    proj_apply, flatRow_apply i k r hr, broadcastTo_1b_ab_apply, shapeCast_a_1a_apply,
    spreadChan_apply, chanRow_apply, spreadCol_apply, keepCol_apply]
  -- What is left is the row function with its definitions unfolded and the coordinates of each index computed.
  rfl

end Cert.KernelIdeal.PayNorm

end
-- ==== Proof.OutRow.lean ====
/-
  The output block's entry as the row function.

  Entry (0, i, k, e) of the block the last case stores is the row function of the accumulator's channel row at (i, k) and
  the gate block's row at (i, k): the normalise-and-project stage gives the first factor at row 128·i + k of the flattened
  block, the flattened gate block's row 128·i + k is the gate's row at (i, k), and the last stage multiplies by the logistic.
-/
import proofs.«105277_j83708912599798_1_alg».proof.Proof.PayNorm
import proofs.«105277_j83708912599798_1_alg».proof.Proof.PayGate

noncomputable section

namespace Cert.KernelIdeal.OutRow

open Cert.KernelIdeal Cert.KernelIdeal.Gen Idealize.ShloMosaic Idealize.ShloMosaic.ValueIdx Cert.GatedRowNorm
open scoped BigOperators

/-- Row 128·i + k of a [2048, 128] block. -/
abbrev flatRow (i : Fin 16) (k : Fin 128) : Fin 2048 :=
  ⟨i.val * 128 + k.val, by have := i.isLt; have := k.isLt; omega⟩

theorem out_entry (acc : Vec Ideal S128x16x128 .f32) (x2 : Vec Ideal S1x16x128x128 .f32) (x3 x4 : Vec Ideal S128 .f32)
    (x5 : Vec Ideal S128x128 .f32) (x6 : Vec Ideal S128 .f32) (x7 : Vec Ideal S128x128 .f32) (x8 : Vec Ideal S128 .f32)
    (i : Fin 16) (k : Fin 128) (e : Fin 128) :
    k0_pay3 (k0_pay4 acc x3 x4 x5 x6) (k0_pay5 x2) x7 x8 (ix4 (0 : Fin 1) i k e)
      = rowOut (fun d => acc (ix3 d i k)) (fun d => x2 (ix4 (0 : Fin 1) i k d))
          (fun d => x3 (ix1 d)) (fun d => x4 (ix1 d)) (fun c d => x5 (ix2 c d)) (fun c => x6 (ix1 c))
          (fun c d => x7 (ix2 c d)) (fun c => x8 (ix1 c)) e := by
  rw [PayGate.pay3_apply _ _ _ _ i k e (flatRow i k) rfl, PayNorm.pay4_apply acc x3 x4 x5 x6 i k e (flatRow i k) rfl]
  unfold rowOut
  congr 2
  unfold rowLin
  congr 1
  exact Finset.sum_congr rfl fun d _ => by rw [PayGate.pay5_apply x2 i k d (flatRow i k) rfl]

end Cert.KernelIdeal.OutRow

end
-- ==== Proof.Final.lean ====
/-
  The result array after the run.

  The output's block is written back only at the last point of each run of four, and there it holds, entry by entry, the
  row function of the finished accumulator's channel row and the gate block's row — that is, the specification read
  through the block, because the finished accumulator holds the whole batched product for the block's rows and columns.
  The 32 × 4 blocks written back tile the 512 × 512 plane, so the array ends holding the specification everywhere.
-/
import proofs.«105277_j83708912599798_1_alg».proof.Proof.Accum
import proofs.«105277_j83708912599798_1_alg».proof.Proof.OutRow

set_option maxRecDepth 16384

noncomputable section

namespace Cert.KernelIdeal.Final

open Cert.KernelIdeal Cert.KernelIdeal.Gen Idealize.ShloMosaic Idealize.ShloMosaic.TcCoe Idealize.ShloMosaic.ValueIdx Idealize.SL.Sem
open Cert.GatedRowNorm
open Idealize.ShloMosaic.Pipeline (Dat)
open scoped BigOperators

variable (m : (ℓ : Loc nD τ sig) → Buf (Elt Ideal) ℓ) (ρ : Dev nD → PrngReg)

/-- The specification of the nine argument arrays as the run finds them. -/
abbrev result (c : Dev nD) : Vec Ideal S1x512x512x128 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The block the last point of a run stores, entry (0, i, k, e), is the specification at row 16·(t/16) + i and column
    128·((t/4)%4) + k: the finished accumulator's channel row is the product's row there, the gate block's row is the
    gate's row there, and the small operands are the arrays themselves. -/
theorem block_entry (c : Dev nD) (t : Fin cfg0.N) (h3 : t.val % 4 = 3) (i : Fin 16) (k : Fin 128) (e : Fin 128)
    (r s : Fin 512) (hr : r.val = t.val / 16 * 16 + i.val) (hs : s.val = t.val / 4 % 4 * 128 + k.val) :
    k0_pay3 (k0_pay4 (outsAt0 m c t.val t.isLt).2 (iblk m c 3 t) (iblk m c 4 t) (iblk m c 5 t) (iblk m c 6 t))
        (k0_pay5 (iblk m c 2 t)) (iblk m c 7 t) (iblk m c 8 t) (ix4 (0 : Fin 1) i k e)
      = result m c (ix4 (0 : Fin 1) r s e) := by
  refine (OutRow.out_entry (outsAt0 m c t.val t.isLt).2 (iblk m c 2 t) (iblk m c 3 t) (iblk m c 4 t) (iblk m c 5 t)
    (iblk m c 6 t) (iblk m c 7 t) (iblk m c 8 t) i k e).trans ?_
  have hp : (fun d : Fin 128 => (outsAt0 m c t.val t.isLt).2 (ix3 d i k))
      = fun d : Fin 128 => ∑ j : Fin 512, Accum.arrA m c (ix4 (0 : Fin 1) d r j) * Accum.arrB m c (ix4 (0 : Fin 1) d j s) :=
    funext fun d => Accum.scratch_last m c t h3 d i k r s hr hs
  have hz : (fun d : Fin 128 => (iblk m c 2 t : Vec Ideal S1x16x128x128 .f32) (ix4 (0 : Fin 1) i k d))
      = fun d : Fin 128 => m ((c : Thread nD τ).loc main_arg2) (ix4 (0 : Fin 1) r s d) :=
    funext fun d => Blocks.iblk2_apply m c t i k d r s hr hs
  rw [hp, hz, Blocks.iblk3_eq m c t, Blocks.iblk4_eq m c t, Blocks.iblk5_eq m c t, Blocks.iblk6_eq m c t,
    Blocks.iblk7_eq m c t, Blocks.iblk8_eq m c t]
  rfl

/-- What a flushing point writes back is the specification read through the point's block. -/
theorem flushed_eq (c : Dev nD) (t : Fin cfg0.N) (hf : (cfg0.win 9).flush t = true) :
    (dats m 0 c).flushed 9 t = ((cfg0.win 9).blk t).view.read (Elt Ideal) (result m c) := by
  have hN : cfg0.N = 512 := N_0
  have h3 : t.val % 4 = 3 := (flush0_9 t).mp hf
  have h0 : ¬t.val % 4 = 0 := by omega
  have hacc : (outsAt0 m c t.val t.isLt).2 = k0_pay2 (iblk m c 0 t) (iblk m c 1 t)
      (outsAt0 m c (t.val - 1) (Nat.lt_of_le_of_lt (Nat.sub_le _ _) t.isLt)).2 := by
    rw [outsAt0_C m c t h0 h3]
    dsimp only
    exact Pieces.sout_C c _ _ _ _ _ _ _ _ _ _ _ _ _ _ _ _ _ _ _ _ _ _ _ _ _ _ _ _ _ _ _ _ _ _ _
  rw [Value.flushed9_C m c t h0 h3, Pieces.out_C, ← hacc]
  funext j
  obtain ⟨j0, i, k, e, rfl⟩ : ∃ (j0 : Fin 1) (i : Fin 16) (k : Fin 128) (e : Fin 128), j = ix4 j0 i k e :=
    ⟨j 0, j 1, j 2, j 3, eq_ix4 j⟩
  obtain rfl : j0 = 0 := Subsingleton.elim _ _
  rw [View.read_apply,
    Blocks.emb9 t i k e ⟨t.val / 16 * 16 + i.val, by have := i.isLt; omega⟩ ⟨t.val / 4 % 4 * 128 + k.val, by have := k.isLt; omega⟩ rfl rfl]
  exact block_entry m c t h3 i k e _ _ rfl rfl

/-- The result array after the run is the specification: every index lies in the block of the last point of the run
    for its row tile and column tile. -/
theorem final (c : Dev nD) : (dats m 0 c).arrAt 9 cfg0.N = result m c := by
  have hN : cfg0.N = 512 := N_0
  refine (dats m 0 c).arrAt_eq_of_cover 9 (result m c) (flushed_eq m c) fun idx => ?_
  have h1 : (idx 1).val < 512 := (idx 1).isLt
  have h2 : (idx 2).val < 512 := (idx 2).isLt
  refine ⟨⟨(idx 1).val / 16 * 16 + (idx 2).val / 128 * 4 + 3, by rw [hN]; omega⟩, (flush0_9 _).mpr (by show ((idx 1).val / 16 * 16 + (idx 2).val / 128 * 4 + 3) % 4 = 3; omega), ?_⟩
  rw [Blocks.mem_blk9]
  show (((idx 1).val / 16 * 16 + (idx 2).val / 128 * 4 + 3) / 16 * 16 ≤ (idx 1).val
      ∧ (idx 1).val < ((idx 1).val / 16 * 16 + (idx 2).val / 128 * 4 + 3) / 16 * 16 + 16)
    ∧ (((idx 1).val / 16 * 16 + (idx 2).val / 128 * 4 + 3) / 4 % 4 * 128 ≤ (idx 2).val
      ∧ (idx 2).val < ((idx 1).val / 16 * 16 + (idx 2).val / 128 * 4 + 3) / 4 % 4 * 128 + 128)
  omega

/-- The kernel's run, read: the result array at the specification of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Final

end
-- ==== Proof.lean ====
/-
  The kernel and its reference compute one function of their nine arguments over the extended reals.

  Both compute, at each position (i, k) of a 512 × 512 plane and each of 128 output channels, the following: the row of
  128 channel values p d = ∑ j, a[d, i, j] · b[d, j, k] of a batched matrix product is normalised over its channels
  (mean, variance, reciprocal square root of the variance plus a small word, a per-channel scale and shift), sent through
  a linear map with bias, and multiplied by the logistic of a second linear map with bias applied to the gate's row
  z[i, k, ·] (the specification, Proof/Spec.lean).

  The reference does this with whole-array operations (Proof/RefSpec.lean reads them at an index). The kernel walks a
  32 × 4 × 4 grid: for each 16-row by 128-column tile of the plane it accumulates the product over four 128-wide pieces of
  the contracted axis into a carried accumulator, reset at the first piece, and at the fourth piece applies everything
  after the product to the finished accumulator and stores the tile. Over the extended reals the accumulator after the
  fourth piece is the whole 512-term sum, because addition there is commutative and associative and a 512-term sum is the
  sum of its four consecutive 128-term quarters (Proof/LibBlockSum.lean, Proof/Accum.lean); no finiteness of the inputs is
  needed, since no term is distributed, cancelled or moved across a sum. Every other operation is the same operation of
  the same words on both sides: a change of float format is the identity, a matrix product into a zero accumulator is the
  plain sum, the lane sum is the plain sum, and the logistic is 1 / (1 + exp (−x)) in both spellings. The stored tiles
  cover the plane, so the kernel's result array is the specification everywhere (Proof/Final.lean).

  The three frame claims are the generated frame runs (the reference's is its generated run with the result dropped); the
  idealisation rewrote nothing, so there is nothing to preserve.
-/
import proofs.«105277_j83708912599798_1_alg».proof.Defs
import proofs.«105277_j83708912599798_1_alg».proof.Proof.Gen.Kernel
import proofs.«105277_j83708912599798_1_alg».proof.Proof.Gen.Kernel.Frame
import proofs.«105277_j83708912599798_1_alg».proof.Proof.Gen.KernelIdeal
import proofs.«105277_j83708912599798_1_alg».proof.Proof.Gen.KernelIdeal.Frame
import proofs.«105277_j83708912599798_1_alg».proof.Proof.Gen.KernelIdeal.Value
import proofs.«105277_j83708912599798_1_alg».proof.Proof.Gen.ReferenceIdeal
import proofs.«105277_j83708912599798_1_alg».proof.Proof.Gen.ReferenceIdeal.Run
import proofs.«105277_j83708912599798_1_alg».proof.Proof.Gen.ReferenceIdeal.Read
import proofs.«105277_j83708912599798_1_alg».proof.Proof.Gen.Pre_finite_inputs
import proofs.«105277_j83708912599798_1_alg».proof.Proof.RefSpec
import proofs.«105277_j83708912599798_1_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array ends at the specification of its arguments, the reference's at its last stage of its
    arguments, which is the specification of them; the arguments agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v40_eq, Cert.ReferenceIdeal.RefSpec.val_eq_G, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
